-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x40 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S2000x128 : Shape := ⟨2, ![2000, 128]⟩
abbrev S1x128 : Shape := ⟨2, ![1, 128]⟩
abbrev S100000x40 : Shape := ⟨2, ![100000, 40]⟩
abbrev S2000x40 : Shape := ⟨2, ![2000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 58
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x40, .f32⟩
  | .local _ .vmem, ⟨14, _⟩ => ⟨S128x40, .f32⟩
  | .local _ .vmem, ⟨15, _⟩ => ⟨S40, .f32⟩
  | .local _ .vmem, ⟨16, _⟩ => ⟨S2000x40, .f32⟩
  | .local _ .vmem, ⟨17, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S100000x40.size a
  hwx1_5 : ∀ i : grid1.Coords, EltTy.bits .f32 = 32 ∨ (Rect.block (s := S100000x40) S2000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x40, .f32⟩
  | .hbm, ⟨72, _⟩ => ⟨S100000x40, .f32⟩
  | .hbm, ⟨73, _⟩ => ⟨S100000x40, .f32⟩
  | .hbm, ⟨74, _⟩ => ⟨S1x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel program's whole run with its RESULT named.

  The program is two pipelined launches among two stretches of host operations.  Its generated frame states that every
  execution terminates with the arguments unchanged; the same launch over the same four segments also tells what the
  result buffer holds at the end, because the last thread state holds EVERY unscoped buffer at the contents of the last
  segment boundary (`Gen.W4`): the result is the second launch's output array, so it ends at what that launch's
  write-backs leave of it.
-/
import proofs.«165877_j32968168964350_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the contents of
    the last segment boundary and the arguments as launched. -/
theorem run_boundary : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.KernelHost.lean ====
/-
  What the host operations around the two launches compute, as functions of what they read.

  Before each launch the program forms, for every node, the MEAN of its in-neighbours' feature rows: it gathers the
  source node's row for every edge (a negative source index counted from the end), adds the gathered rows into the
  destination nodes' rows, and multiplies every row by the reciprocal of the node's in-degree (at least one).  The
  degrees, and their reciprocals, are computed once, before the first launch, from the edge list alone; the second
  stretch reads them, the edge list's two rows and the first launch's output where the first stretch left them.
-/
import proofs.«165877_j32968168964350_2_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The source node of every edge: row 0 of the edge list. -/
def srcVec (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The destination node of every edge: row 1 of the edge list. -/
def dstVec (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Every node's in-degree, clamped at one from below: ones added into the destination nodes' bins. -/
def degVec (dst : (⟨S1600000, .i32⟩ : BufTy).Contents (Elt F)) : (⟨S100000, .f32⟩ : BufTy).Contents (Elt F) :=
  maximumf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- The reciprocal of every node's clamped in-degree. -/
def invDegVec (dst : (⟨S1600000, .i32⟩ : BufTy).Contents (Elt F)) : (⟨S100000, .f32⟩ : BufTy).Contents (Elt F) :=
  Host.divf (broadcastInDim S100000 ![] bcast_S_S100000 (constant S_ .f32 0x3F800000#32)) (degVec dst)

/-- The sum, per destination node, of the feature rows of its edges' source nodes. -/
def nbrSum (feat : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 feat
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A per-node number spread over the node's 128 lanes. -/
def perRow (v : (⟨S100000, .f32⟩ : BufTy).Contents (Elt F)) : (⟨S100000x128, .f32⟩ : BufTy).Contents (Elt F) :=
  broadcastInDim S100000x128 ![0, 1] bcast_S100000x1_S100000x128_0_1 (broadcastInDim S100000x1 ![0] bcast_S100000_S100000x1_0 v)

/-- The neighbour sums scaled row by row: the kernel program's mean aggregation, by a precomputed reciprocal. -/
def scaledNbrSum (feat : (⟨S100000x128, .f32⟩ : BufTy).Contents (Elt F)) (src dst : (⟨S1600000, .i32⟩ : BufTy).Contents (Elt F))
    (inv : (⟨S100000, .f32⟩ : BufTy).Contents (Elt F)) : (⟨S100000x128, .f32⟩ : BufTy).Contents (Elt F) :=
  mulf (nbrSum feat src dst) (perRow inv)

variable (m : (ℓ : Loc nD τ sig) → Buf (Elt F) ℓ) (ρ : Dev nD → PrngReg)

/-! ## The first stretch, read at the buffers the launches and the second stretch read -/

theorem W1_v1 (c : Dev nD) : W1 m ρ c (Proc.devRef .tc main_v1) = srcVec (m ((c : Thread nD τ).loc main_arg1)) := by
  dsimp only [W1, hostOps0]; after_results; rfl

theorem W1_v3 (c : Dev nD) : W1 m ρ c (Proc.devRef .tc main_v3) = dstVec (m ((c : Thread nD τ).loc main_arg1)) := by
  dsimp only [W1, hostOps0]; after_results; rfl

theorem W1_v11 (c : Dev nD) : W1 m ρ c (Proc.devRef .tc main_v11) = invDegVec (dstVec (m ((c : Thread nD τ).loc main_arg1))) := by
  dsimp only [W1, hostOps0]; after_results; rfl

set_option maxHeartbeats 4000000 in
theorem W1_v24 (c : Dev nD) : W1 m ρ c (Proc.devRef .tc main_v24)
    = scaledNbrSum (m ((c : Thread nD τ).loc main_arg0)) (srcVec (m ((c : Thread nD τ).loc main_arg1)))
        (dstVec (m ((c : Thread nD τ).loc main_arg1))) (invDegVec (dstVec (m ((c : Thread nD τ).loc main_arg1)))) := by
  dsimp only [W1, hostOps0]; after_results_simp <;> rfl

theorem W1_arg0 (c : Dev nD) : W1 m ρ c (Proc.devRef .tc main_arg0) = m ((c : Thread nD τ).loc main_arg0) := by
  dsimp only [W1, hostOps0]; after_results
theorem W1_arg2 (c : Dev nD) : W1 m ρ c (Proc.devRef .tc main_arg2) = m ((c : Thread nD τ).loc main_arg2) := by
  dsimp only [W1, hostOps0]; after_results
theorem W1_arg3 (c : Dev nD) : W1 m ρ c (Proc.devRef .tc main_arg3) = m ((c : Thread nD τ).loc main_arg3) := by
  dsimp only [W1, hostOps0]; after_results
theorem W1_arg4 (c : Dev nD) : W1 m ρ c (Proc.devRef .tc main_arg4) = m ((c : Thread nD τ).loc main_arg4) := by
  dsimp only [W1, hostOps0]; after_results
theorem W1_arg5 (c : Dev nD) : W1 m ρ c (Proc.devRef .tc main_arg5) = m ((c : Thread nD τ).loc main_arg5) := by
  dsimp only [W1, hostOps0]; after_results
theorem W1_arg6 (c : Dev nD) : W1 m ρ c (Proc.devRef .tc main_arg6) = m ((c : Thread nD τ).loc main_arg6) := by
  dsimp only [W1, hostOps0]; after_results
theorem W1_arg7 (c : Dev nD) : W1 m ρ c (Proc.devRef .tc main_arg7) = m ((c : Thread nD τ).loc main_arg7) := by
  dsimp only [W1, hostOps0]; after_results

/-! ## The second stretch -/

set_option maxHeartbeats 4000000 in
theorem W3_v38 (c : Dev nD) : W3 m ρ c (Proc.devRef .tc main_v38)
    = scaledNbrSum (W2 m ρ c (Proc.devRef .tc main_v25)) (W2 m ρ c (Proc.devRef .tc main_v1))
        (W2 m ρ c (Proc.devRef .tc main_v3)) (W2 m ρ c (Proc.devRef .tc main_v11)) := by
  dsimp only [W3, hostOps1]; after_results_simp <;> rfl

theorem W3_v25 (c : Dev nD) : W3 m ρ c (Proc.devRef .tc main_v25) = W2 m ρ c (Proc.devRef .tc main_v25) := by
  dsimp only [W3, hostOps1]; after_results
theorem W3_arg5 (c : Dev nD) : W3 m ρ c (Proc.devRef .tc main_arg5) = W2 m ρ c (Proc.devRef .tc main_arg5) := by
  dsimp only [W3, hostOps1]; after_results
theorem W3_arg6 (c : Dev nD) : W3 m ρ c (Proc.devRef .tc main_arg6) = W2 m ρ c (Proc.devRef .tc main_arg6) := by
  dsimp only [W3, hostOps1]; after_results
theorem W3_arg7 (c : Dev nD) : W3 m ρ c (Proc.devRef .tc main_arg7) = W2 m ρ c (Proc.devRef .tc main_arg7) := by
  dsimp only [W3, hostOps1]; after_results

/-! ## Across the first launch: it writes its output array only -/

theorem W2_v1 (c : Dev nD) : W2 m ρ c (Proc.devRef .tc main_v1) = srcVec (m ((c : Thread nD τ).loc main_arg1)) :=
  (W2_of_ne m ρ c main_v1 (by decide)).trans (W1_v1 m ρ c)
theorem W2_v3 (c : Dev nD) : W2 m ρ c (Proc.devRef .tc main_v3) = dstVec (m ((c : Thread nD τ).loc main_arg1)) :=
  (W2_of_ne m ρ c main_v3 (by decide)).trans (W1_v3 m ρ c)
theorem W2_v11 (c : Dev nD) : W2 m ρ c (Proc.devRef .tc main_v11) = invDegVec (dstVec (m ((c : Thread nD τ).loc main_arg1))) :=
  (W2_of_ne m ρ c main_v11 (by decide)).trans (W1_v11 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

end Cert.KernelIdeal.Hand

end
-- ==== Proof.Spec.lean ====
/-
  The mathematics of one SAGE layer, row by row, on the extended reals.

  A node's new feature row is an affine map of two rows: the node's aggregated neighbour row `p` times one weight
  matrix, plus the node's own row `x` times a second one, plus a bias row.  The first layer then clamps each entry
  at zero from below; the second layer takes the row's log-softmax: each entry minus the row's maximum, minus the
  logarithm of the sum over the row of the exponentials of the entries so shifted.  These are stated here once, over
  plain functions of a column index, so that a kernel's block row and the whole array's row are the same expression.
-/
import Idealize.ShloMosaic.Lib.ValueIdx
import Idealize.ShloMosaic.PureOps.Ideal

noncomputable section

open scoped BigOperators

namespace Cert.Sage

open Idealize.ShloMosaic Idealize.ShloMosaic.ValueIdx

/-- The maximum of a row, folded from the least extended real (written as the float pattern of minus infinity). -/
def rowMax {n : ℕ} (z : Fin n → EReal) : EReal :=
  (Finset.univ : Finset (Fin n)).fold max (Ideal.ofBits .f32 0xFF800000#32) z

/-- Entry `q` of the log-softmax of a row: the entry shifted by the row's maximum, minus the logarithm of the sum of
    the exponentials of all the shifted entries. -/
def logSoftmaxRow {n : ℕ} (z : Fin n → EReal) (q : Fin n) : EReal :=
  (z q - rowMax z) - Ideal.log (∑ j : Fin n, Ideal.exp (z j - rowMax z))

/-- Entry `q` of the affine row: `p · Wl + x · Wr + b` at column `q`, the two products summed first. -/
def affineRow {K N : ℕ} (p x : Fin K → EReal) (Wl Wr : (⟨2, ![K, N]⟩ : Shape).Idx → EReal)
    (b : (⟨1, ![N]⟩ : Shape).Idx → EReal) (q : Fin N) : EReal :=
  ((∑ k : Fin K, p k * Wl (ix2 k q)) + (∑ k : Fin K, x k * Wr (ix2 k q))) + b (ix1 q)

/-- Entry `q` of a first-layer row: the affine row clamped at zero from below. -/
def reluRow {K N : ℕ} (p x : Fin K → EReal) (Wl Wr : (⟨2, ![K, N]⟩ : Shape).Idx → EReal)
    (b : (⟨1, ![N]⟩ : Shape).Idx → EReal) (q : Fin N) : EReal :=
  max (affineRow p x Wl Wr b q) (Ideal.ofBits .f32 0x00000000#32)

/-- Entry `q` of a second-layer row: the log-softmax of the affine row. -/
def logitRow {K N : ℕ} (p x : Fin K → EReal) (Wl Wr : (⟨2, ![K, N]⟩ : Shape).Idx → EReal)
    (b : (⟨1, ![N]⟩ : Shape).Idx → EReal) (q : Fin N) : EReal :=
  logSoftmaxRow (fun j => affineRow p x Wl Wr b j) q

end Cert.Sage

end
-- ==== Proof.LibPlainMatmul.lean ====
/-
  A plain matrix product read at an index, at the exact (extended-real) instance.

  For operands `l : [M, K]` and `w : [K, N]` and the dimension numbers "contract the left operand's last axis with the
  right operand's first, no batch axis", the product accumulated into the zero array has, at `(r, c)`, the value
  `∑ j, l (r, j) * w (j, c)`: there is no rounding and no accumulation order at this instance, and the one-axis contraction
  index is its one coordinate. Stated for every extent and every pair of operand formats (at this instance an entry is an
  extended real whatever its format).
-/
import Idealize.ShloMosaic.Lib.ValueIdx
import Idealize.ShloMosaic.PureOps.Ideal.Laws

noncomputable section

open scoped BigOperators

namespace Cert.Lib

open Idealize.ShloMosaic Idealize.ShloMosaic.ValueIdx

/-- A plain matrix product `[M, K] × [K, N]` accumulated into zeros, read at `(r, c)`: the sum over the contracted
    index `j` of `l (r, j) * w (j, c)`. -/
theorem matmul_plain_zero_apply {M K N : ℕ} {φ₁ φ₂ : FTy} (prec : Option ContractPrecision)
    (l : FVec Ideal ⟨2, ![M, K]⟩ φ₁) (w : FVec Ideal ⟨2, ![K, N]⟩ φ₂) (r : Fin M) (c : Fin N) :
    matmul (DotDims.plain M K N) prec l w (constant (F := Ideal) ⟨2, ![M, N]⟩ .f32 0x00000000#32) (ix2 r c)
      = ∑ j : Fin K, l (ix2 r j) * w (ix2 j c) := by
  simp only [matmul]
  rw [Ideal.matmul_constant_zero_apply, ← Equiv.sum_comp (contrEquiv1 (DotDims.plain M K N) K rfl rfl).symm]
  refine Finset.sum_congr rfl fun k _ => ?_
  -- the contraction index built from `k` has `k` as its one coordinate
  have hk := contrEquiv1_symm_val (DotDims.plain M K N) K rfl rfl k
  -- the left operand is read at (r, k): its kept axis follows the output's row, its contracted axis the index
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  -- the right operand is read at (k, c)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

end Cert.Lib

end
-- ==== Proof.LibIdealLayout.lean ====
/-
  General facts about array operations read at the exact (extended-real) instance, for any shapes.

  * A matrix product accumulated into the zero array is the host's `dot_general` of the same operands: both are, entry by
    entry, the plain sum over the contracted index (there is no rounding and no accumulation order at this instance).
  * One row `v : [b]` spread over all rows of an `[a, b]` array reads, at `(p, c)`, `v c` — in the two spellings programs
    use: a cast to `[1, b]` followed by a vector broadcast, and two `broadcast_in_dim`s (`[b] → [1, b] → [a, b]`).
  * A scalar spread over an array reads the scalar at every index.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.IdealLayout

open Idealize.ShloMosaic Idealize.ShloMosaic.ValueIdx

/-- At the exact instance a `tpu.matmul` into the zero accumulator IS the host's `dot_general` with the same dimension
    numbers: entry `j` of either is `∑ k, lhs (lhsIdx j k) * rhs (rhsIdx j k)`. -/
theorem matmul_zero_eq_dotGeneral {sl sr so : Shape} {φ₁ φ₂ : FTy} (d : DotDims sl sr so) (prec : Option ContractPrecision)
    (l : FVec Ideal sl φ₁) (r : FVec Ideal sr φ₂) :
    matmul d prec l r (constant (F := Ideal) so .f32 0x00000000#32) = Host.dotGeneral d prec l r := by
  funext j
  simp only [matmul, Host.dotGeneral]
  rw [Ideal.matmul_constant_zero_apply, Ideal.dotGeneral_apply]

/-- The same with the operands' float formats free: a matrix product into zeros of one pair of arrays is the host's
    `dot_general` of any pair with the same entries (at the exact instance an entry is an extended real whatever its
    format, so a body's bf16 casts change nothing). -/
theorem matmul_zero_eq_dotGeneral_of_eq {sl sr so : Shape} {φ₁ φ₂ ψ₁ ψ₂ : FTy} (d : DotDims sl sr so) (prec : Option ContractPrecision)
    (l : FVec Ideal sl φ₁) (r : FVec Ideal sr φ₂) (l' : FVec Ideal sl ψ₁) (r' : FVec Ideal sr ψ₂)
    (hl : ∀ i, (l i : EReal) = l' i) (hr : ∀ i, (r i : EReal) = r' i) :
    (matmul d prec l r (constant (F := Ideal) so .f32 0x00000000#32) : so.Idx → EReal) = Host.dotGeneral d prec l' r' := by
  funext j
  simp only [matmul, Host.dotGeneral]
  rw [Ideal.matmul_constant_zero_apply, Ideal.dotGeneral_apply]
  exact Finset.sum_congr rfl fun k _ => by rw [hl, hr]

/-- A row cast `[b] → [1, b]` and broadcast over `a` rows reads the row's entry of the column. -/
theorem broadcastTo_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Two `broadcast_in_dim`s, `[b] → [1, b]` along the last axis and `[1, b] → [a, b]`, read the row's entry of the column. -/
theorem broadcastInDim_row_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (p : Fin a) (c : Fin b) :
    broadcastInDim ⟨2, ![a, b]⟩ ![0, 1] h2 (broadcastInDim ⟨2, ![1, b]⟩ ![1] h1 v) (ix2 p c) = v (ix1 c) := by
  have hc : c.val = if b = 1 then 0 else c.val := by
    split
    · have := c.isLt; omega
    · rfl
  refine (broadcastInDim_apply ![0, 1] h2 _ (ix2 p c) (ix2 (0 : Fin 1) c) (fun ax => ?_)).trans
    (broadcastInDim_apply ![1] h1 v (ix2 (0 : Fin 1) c) (ix1 c) (fun ax => ?_))
  · match ax with
    | ⟨0, _⟩ => show 0 = if (1 : Nat) = 1 then 0 else p.val; rw [if_pos rfl]
    | ⟨1, _⟩ => exact hc
  · match ax with
    | ⟨0, _⟩ => exact hc

/-- A scalar spread over an array by `broadcast_in_dim` reads the scalar everywhere. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x (fun a => a.elim0) :=
  broadcastInDim_apply dims h x j (fun a => a.elim0) (fun a => a.elim0)

end Idealize.ShloMosaic.IdealLayout

end
-- ==== Proof.LibColumns.lean ====
/-
  General lemmas, none about a particular kernel.

  (1) The "keepdims" column forms of two layout operations, read at an index: an [a,1] column repeated along b lanes
      (`vector.broadcast` of a per-row scalar over a row), and an [a] vector seen as an [a,1] column (`vector.shape_cast`
      after a lane reduction with keepdims).
  (2) Two re-indexings of finite sums over any commutative monoid: a sum over a·b consecutive naturals cut into a runs
      of b, and a sum over the index of a rank-one shape as the sum over its coordinate.
-/
import Idealize.ShloMosaic.Lib.Pipeline.Value
import Idealize.ShloMosaic.Lib.ValueIdx

namespace Cert.Lib

open Idealize.ShloMosaic Idealize.ShloMosaic.ValueIdx

/-- An [a,1] column repeated along b lanes reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => show (0 : ℕ) = if (1 : ℕ) = 1 then 0 else c.val; rw [if_pos rfl]

/-- An [a] vector seen as an [a,1] column reads, at (p, 0), the vector at p. -/
theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    omega)

/-- A sum over a·b consecutive naturals, cut into a runs of b. -/
theorem sum_range_mul {M : Type*} [AddCommMonoid M] (f : ℕ → M) (a b : ℕ) :
    ∑ n ∈ Finset.range (a * b), f n = ∑ t ∈ Finset.range a, ∑ r ∈ Finset.range b, f (t * b + r) := by
  induction a with
  | zero => simp
  | succ a ih => rw [Nat.succ_mul, Finset.sum_range_add, ih, Finset.sum_range_succ]

/-- A sum over a rank-one index is the sum over its coordinate. -/
theorem sum_idx1 {M : Type*} [AddCommMonoid M] {n : ℕ} (f : (⟨1, ![n]⟩ : Shape).Idx → M) :
    ∑ j : (⟨1, ![n]⟩ : Shape).Idx, f j = ∑ a : Fin n, f (ix1 a) :=
  let e : (⟨1, ![n]⟩ : Shape).Idx ≃ Fin n := ⟨fun j => j 0, ix1, fun j => (eq_ix1 j).symm, fun _ => rfl⟩
  Fintype.sum_equiv e _ _ fun j => congrArg f (eq_ix1 j)

end Cert.Lib
-- ==== Proof.LibRowReduce.lean ====
/-
  General lemmas, none about a particular program: the reductions of an [a, b] array along its lanes (the last axis),
  read at a row, at the exact (extended-real) instance — in the spelling a kernel body uses (`vector.multi_reduction`)
  and in the spelling a host program uses (`stablehlo.reduce`) — and a per-row vector spread over the lanes of an
  [a, b] array by two `broadcast_in_dim`s, read at an index.

  * The maximum: both spellings are the fold of `max` over the row's `b` entries from the initial value.
  * The sum: the kernel's is the sum of the row's entries; the host's is the initial value plus that sum.
  * `[a] → [a, 1] → [a, b]`: entry (r, q) is entry r of the vector.
-/
import Idealize.ShloMosaic.Lib.ValueIdx
import Idealize.ShloMosaic.Lib.Pipeline.Value
import Idealize.ShloMosaic.PureOps.Ideal.Laws

noncomputable section

open scoped BigOperators

namespace Cert.Lib

open Idealize.ShloMosaic Idealize.ShloMosaic.ValueIdx

/-- The row index `r` with the lane `k` put back is (r, k). -/
theorem lift_lane {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's lane maximum at row `r`: the fold of `max` over the row from the accumulator's value. -/
theorem multiReduction_max_lanes {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] (⟨1, ![a]⟩ : Shape) src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_lane h r k)
  exact congrArg (fun f => Finset.fold max (Ideal.ofBits φ acc) f (Finset.univ : Finset (Fin b))) hf

/-- A kernel's lane sum at row `r`: the sum of the row's entries. -/
theorem multiReduction_add_lanes {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] (⟨1, ![a]⟩ : Shape) src acc h hφ hacc (ix1 r) = ∑ k : Fin b, src (ix2 r k) := by
  rw [Ideal.multiReduction_add_single]
  exact Finset.sum_congr rfl fun k _ => congrArg src (lift_lane h r k)

/-- The host's reduce with a maximum body along the lanes, at row `r`: the fold of `max` over the row from the
    initial value. -/
theorem hostReduce_max_lanes {a b : ℕ} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x _ h' h hu]
  have hf : (x ∘ h.lift (ix1 r)) = fun k : Fin b => x (ix2 r k) := funext fun k => congrArg x (lift_lane h r k)
  exact congrArg (fun f => Finset.fold max (init (Shape.Idx.first hu)) f (Finset.univ : Finset (Fin b))) hf

/-- The host's float sum along the lanes, at row `r`: the initial value plus the sum of the row's entries. -/
theorem hostReduceAdd_lanes {a b : ℕ} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_lane h r k))

/-- An [a, 1] column spread over b lanes by `broadcast_in_dim` reads, at (r, q), the column at (r, 0). -/
theorem broadcastInDim_a1_ab_apply {α : Type} {a b : ℕ} (Y : (⟨2, ![a, 1]⟩ : Shape).Idx → α)
    (h2 : (⟨2, ![a, 1]⟩ : Shape).BroadcastsInDim ⟨2, ![a, b]⟩ ![0, 1]) (r : Fin a) (q : Fin b) :
    broadcastInDim ⟨2, ![a, b]⟩ ![0, 1] h2 Y (ix2 r q) = Y (ix2 r (0 : Fin 1)) :=
  broadcastInDim_apply ![0, 1] h2 Y (ix2 r q) (ix2 r (0 : Fin 1)) (fun ax => by
    match ax with
    | ⟨0, _⟩ =>
      show r.val = if a = 1 then 0 else r.val
      split
      · have := r.isLt; omega
      · rfl
    | ⟨1, _⟩ => show 0 = if (1 : Nat) = 1 then 0 else q.val; rw [if_pos rfl])

/-- An [a] vector seen as an [a, 1] column by `broadcast_in_dim` reads, at (r, 0), the vector at r. -/
theorem broadcastInDim_a_a1_apply {α : Type} {a : ℕ} (v : (⟨1, ![a]⟩ : Shape).Idx → α)
    (h1 : (⟨1, ![a]⟩ : Shape).BroadcastsInDim ⟨2, ![a, 1]⟩ ![0]) (r : Fin a) (u : Fin 1) :
    broadcastInDim ⟨2, ![a, 1]⟩ ![0] h1 v (ix2 r u) = v (ix1 r) :=
  broadcastInDim_apply ![0] h1 v (ix2 r u) (ix1 r) (fun ax => by
    match ax with
    | ⟨0, _⟩ =>
      show r.val = if a = 1 then 0 else r.val
      split
      · have := r.isLt; omega
      · rfl)

/-- A per-row vector spread over the lanes by two `broadcast_in_dim`s, `[a] → [a, 1]` along the first axis and
    `[a, 1] → [a, b]`, reads at (r, q) the vector's entry r. -/
theorem broadcastInDim_col_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1])
    (r : Fin a) (q : Fin b) :
    broadcastInDim ⟨2, ![a, b]⟩ ![0, 1] h2 (broadcastInDim ⟨2, ![a, 1]⟩ ![0] h1 v) (ix2 r q) = v (ix1 r) :=
  (broadcastInDim_a1_ab_apply _ h2 r q).trans (broadcastInDim_a_a1_apply v h1 r 0)

end Cert.Lib

end
-- ==== Proof.Rows.lean ====
/-
  A block of SAGE rows read at an index, in the two spellings of the two programs, at the exact (extended-real) instance.

  The affine part `P · Wl + X · Wr + b`: in a kernel body two matrix products into zero accumulators, added, plus the bias
  row cast to one row and repeated down the block; in a host program two `dot_general`s, added, plus the bias row spread
  by two `broadcast_in_dim`s.  Entry (r, q) of either is the affine row of `Spec` built from row r of `P` and of `X`.

  The log-softmax along the lanes: in a kernel body a lane maximum kept as a column, subtracted, exponentials, a lane sum
  kept as a column, its logarithm, subtracted; in a host program a reduce with a maximum body (and a maximum against minus
  infinity that changes nothing), two broadcasts, a subtraction, exponentials, a float sum from zero, a broadcast, the
  logarithm, a broadcast, a subtraction.  Entry (r, q) of either is the log-softmax of row r at q.
-/
import proofs.«165877_j32968168964350_2_alg».proof.Proof.Spec
import proofs.«165877_j32968168964350_2_alg».proof.Proof.LibPlainMatmul
import proofs.«165877_j32968168964350_2_alg».proof.Proof.LibIdealLayout
import proofs.«165877_j32968168964350_2_alg».proof.Proof.LibColumns
import proofs.«165877_j32968168964350_2_alg».proof.Proof.LibRowReduce

noncomputable section

open scoped BigOperators

namespace Cert.Sage

open Idealize.ShloMosaic Idealize.ShloMosaic.ValueIdx

/-! ## The affine part -/

/-- A kernel body's matrix product with plain dimension numbers into zeros, at (r, c). -/
theorem matmul_eq_plain_apply {M K N : ℕ} {φ₁ φ₂ : FTy} (d : DotDims ⟨2, ![M, K]⟩ ⟨2, ![K, N]⟩ ⟨2, ![M, N]⟩)
    (hd : d = DotDims.plain M K N) (l : FVec Ideal ⟨2, ![M, K]⟩ φ₁) (w : FVec Ideal ⟨2, ![K, N]⟩ φ₂) (r : Fin M) (c : Fin N) :
    matmul d none l w (constant (F := Ideal) ⟨2, ![M, N]⟩ .f32 0x00000000#32) (ix2 r c) = ∑ j : Fin K, l (ix2 r j) * w (ix2 j c) := by
  subst hd; exact Cert.Lib.matmul_plain_zero_apply none l w r c

/-- A host program's `dot_general` with plain dimension numbers, at (r, c). -/
theorem dotGeneral_eq_plain_apply {M K N : ℕ} {φ₁ φ₂ : FTy} (d : DotDims ⟨2, ![M, K]⟩ ⟨2, ![K, N]⟩ ⟨2, ![M, N]⟩)
    (hd : d = DotDims.plain M K N) (l : FVec Ideal ⟨2, ![M, K]⟩ φ₁) (w : FVec Ideal ⟨2, ![K, N]⟩ φ₂) (r : Fin M) (c : Fin N) :
    Host.dotGeneral d none l w (ix2 r c) = ∑ j : Fin K, l (ix2 r j) * w (ix2 j c) := by
  rw [← IdealLayout.matmul_zero_eq_dotGeneral]; exact matmul_eq_plain_apply d hd l w r c

/-- The affine part of a kernel body's block, at (p, q): the affine row of row p of the two left operands. -/
theorem affineBlock_apply {M K N : ℕ} {φ₁ φ₂ : FTy} (d : DotDims ⟨2, ![M, K]⟩ ⟨2, ![K, N]⟩ ⟨2, ![M, N]⟩)
    (hd : d = DotDims.plain M K N) (a0 a1 : FVec Ideal ⟨2, ![M, K]⟩ φ₁) (w0 w1 : FVec Ideal ⟨2, ![K, N]⟩ φ₂)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (p : Fin M) (q : Fin N) :
    addf (addf (matmul d none a0 w0 (constant (F := Ideal) ⟨2, ![M, N]⟩ .f32 0x00000000#32))
        (matmul d none a1 w1 (constant (F := Ideal) ⟨2, ![M, N]⟩ .f32 0x00000000#32)))
      (broadcastTo ⟨2, ![M, N]⟩ (shapeCast ⟨2, ![1, N]⟩ b h1) h2) (ix2 p q)
      = affineRow (fun k => a0 (ix2 p k)) (fun k => a1 (ix2 p k)) w0 w1 b q := by
  show (matmul d none a0 w0 _ (ix2 p q) + matmul d none a1 w1 _ (ix2 p q)) + broadcastTo ⟨2, ![M, N]⟩ (shapeCast ⟨2, ![1, N]⟩ b h1) h2 (ix2 p q) = _
  rw [matmul_eq_plain_apply d hd, matmul_eq_plain_apply d hd, IdealLayout.broadcastTo_row_apply]
  rfl

/-- The affine part of a host program's array, at (r, q): the affine row of row r of the two left operands. -/
theorem hostAffine_apply {M K N : ℕ} (d : DotDims ⟨2, ![M, K]⟩ ⟨2, ![K, N]⟩ ⟨2, ![M, N]⟩)
    (hd : d = DotDims.plain M K N) (P X : FVec Ideal ⟨2, ![M, K]⟩ .f32) (Wl Wr : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (r : Fin M) (q : Fin N) :
    addf (addf (Host.dotGeneral d none P Wl) (Host.dotGeneral d none X Wr))
      (broadcastInDim ⟨2, ![M, N]⟩ ![0, 1] h2 (broadcastInDim ⟨2, ![1, N]⟩ ![1] h1 b)) (ix2 r q)
      = affineRow (fun k => P (ix2 r k)) (fun k => X (ix2 r k)) Wl Wr b q := by
  show (Host.dotGeneral d none P Wl (ix2 r q) + Host.dotGeneral d none X Wr (ix2 r q))
      + broadcastInDim ⟨2, ![M, N]⟩ ![0, 1] h2 (broadcastInDim ⟨2, ![1, N]⟩ ![1] h1 b) (ix2 r q) = _
  rw [dotGeneral_eq_plain_apply d hd, dotGeneral_eq_plain_apply d hd, IdealLayout.broadcastInDim_row_apply]
  rfl

/-! ## The log-softmax along the lanes -/

/-- The maximum against minus infinity changes nothing. -/
theorem max_negInf (y : EReal) : max (Ideal.ofBits .f32 0xFF800000#32) y = y := by
  simp [Ideal.ofBits, Ideal.ieee]

set_option maxHeartbeats 1600000 in
/-- A kernel body's log-softmax of a block, at (p, q). -/
theorem logSoftmaxBlock_apply {a b : ℕ} (Z : FVec Ideal ⟨2, ![a, b]⟩ .f32)
    (hr : (⟨2, ![a, b]⟩ : Shape).Reduces [1] (⟨1, ![a]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf Z (broadcastTo ⟨2, ![a, b]⟩ (shapeCast ⟨2, ![a, 1]⟩
          (multiReduction .maximumf [1] (⟨1, ![a]⟩ : Shape) Z 0xFF800000#32 hr hφ hmax) hc) hb))
      (broadcastTo ⟨2, ![a, b]⟩ (log (shapeCast ⟨2, ![a, 1]⟩
          (multiReduction .add [1] (⟨1, ![a]⟩ : Shape)
            (exp (subf Z (broadcastTo ⟨2, ![a, b]⟩ (shapeCast ⟨2, ![a, 1]⟩
              (multiReduction .maximumf [1] (⟨1, ![a]⟩ : Shape) Z 0xFF800000#32 hr hφ hmax) hc) hb)))
            0x00000000#32 hr hφ hadd) hc)) hb) (ix2 p q)
      = logSoftmaxRow (fun k => Z (ix2 p k)) q := by
  -- the column of row maxima, repeated along the lanes, reads the row's maximum
  have hM : ∀ k : Fin b, broadcastTo ⟨2, ![a, b]⟩ (shapeCast ⟨2, ![a, 1]⟩
      (multiReduction .maximumf [1] (⟨1, ![a]⟩ : Shape) Z 0xFF800000#32 hr hφ hmax) hc) hb (ix2 p k)
      = rowMax (fun j => Z (ix2 p j)) := fun k => by
    rw [Cert.Lib.broadcastTo_a1_ab_apply, Cert.Lib.shapeCast_a_a1_apply, Cert.Lib.multiReduction_max_lanes]
    rfl
  show (Z (ix2 p q) - _) - broadcastTo ⟨2, ![a, b]⟩ (log (shapeCast ⟨2, ![a, 1]⟩ _ hc)) hb (ix2 p q) = _
  rw [hM q, Cert.Lib.broadcastTo_a1_ab_apply]
  show _ - Ideal.log (shapeCast ⟨2, ![a, 1]⟩ _ hc (ix2 p (0 : Fin 1))) = _
  rw [Cert.Lib.shapeCast_a_a1_apply, Cert.Lib.multiReduction_add_lanes]
  unfold logSoftmaxRow
  refine congrArg (fun s => (Z (ix2 p q) - rowMax (fun j => Z (ix2 p j))) - Ideal.log s) (Finset.sum_congr rfl fun k _ => ?_)
  show Ideal.exp (Z (ix2 p k) - _) = _
  rw [hM k]

set_option maxHeartbeats 1600000 in
/-- A host program's log-softmax of an array along its lanes, at (r, q). -/
theorem hostLogSoftmax_apply {a b : ℕ} (Z : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (hb0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) (r : Fin a) (q : Fin b) :
    subf (subf Z (broadcastInDim ⟨2, ![a, b]⟩ ![0, 1] h2 (broadcastInDim ⟨2, ![a, 1]⟩ ![0] h1
          (maximumf (broadcastInDim ⟨1, ![a]⟩ ![] hb0 (constant (F := Ideal) ⟨0, ![]⟩ .f32 0xFF800000#32))
            (Host.reduce FloatOps.maximumf Z (constant (F := Ideal) ⟨0, ![]⟩ .f32 0xFF800000#32) h' hu)))))
      (broadcastInDim ⟨2, ![a, b]⟩ ![0, 1] h2 (Host.log (broadcastInDim ⟨2, ![a, 1]⟩ ![0] h1
          (Host.reduceAdd (Host.exp (subf Z (broadcastInDim ⟨2, ![a, b]⟩ ![0, 1] h2 (broadcastInDim ⟨2, ![a, 1]⟩ ![0] h1
              (maximumf (broadcastInDim ⟨1, ![a]⟩ ![] hb0 (constant (F := Ideal) ⟨0, ![]⟩ .f32 0xFF800000#32))
                (Host.reduce FloatOps.maximumf Z (constant (F := Ideal) ⟨0, ![]⟩ .f32 0xFF800000#32) h' hu))))))
            (constant (F := Ideal) ⟨0, ![]⟩ .f32 0x00000000#32) h' hu)))) (ix2 r q)
      = logSoftmaxRow (fun k => Z (ix2 r k)) q := by
  -- the row maxima spread over the lanes read the row's maximum
  have hM : ∀ k : Fin b, broadcastInDim ⟨2, ![a, b]⟩ ![0, 1] h2 (broadcastInDim ⟨2, ![a, 1]⟩ ![0] h1
      (maximumf (broadcastInDim ⟨1, ![a]⟩ ![] hb0 (constant (F := Ideal) ⟨0, ![]⟩ .f32 0xFF800000#32))
        (Host.reduce FloatOps.maximumf Z (constant (F := Ideal) ⟨0, ![]⟩ .f32 0xFF800000#32) h' hu))) (ix2 r k)
      = rowMax (fun j => Z (ix2 r j)) := fun k => by
    rw [Cert.Lib.broadcastInDim_col_apply]
    show max (broadcastInDim ⟨1, ![a]⟩ ![] hb0 (constant (F := Ideal) ⟨0, ![]⟩ .f32 0xFF800000#32) (ix1 r))
      (Host.reduce FloatOps.maximumf Z (constant (F := Ideal) ⟨0, ![]⟩ .f32 0xFF800000#32) h' hu (ix1 r)) = _
    rw [IdealLayout.broadcastInDim_scalar_apply, Cert.Lib.hostReduce_max_lanes Z _ h' h hu]
    exact max_negInf _
  show (Z (ix2 r q) - _) - broadcastInDim (s := ⟨2, ![a, 1]⟩) ⟨2, ![a, b]⟩ ![0, 1] h2 (Host.log _) (ix2 r q) = _
  rw [hM q, Cert.Lib.broadcastInDim_a1_ab_apply]
  show _ - Ideal.log (broadcastInDim (s := ⟨1, ![a]⟩) ⟨2, ![a, 1]⟩ ![0] h1 _ (ix2 r (0 : Fin 1))) = _
  rw [Cert.Lib.broadcastInDim_a_a1_apply, Cert.Lib.hostReduceAdd_lanes _ _ h' h hu]
  unfold logSoftmaxRow
  have h0 : (constant (F := Ideal) ⟨0, ![]⟩ .f32 0x00000000#32) (Shape.Idx.first hu) = 0 := Ideal.ofBits_zero_f32
  rw [h0, zero_add]
  refine congrArg (fun s => (Z (ix2 r q) - rowMax (fun j => Z (ix2 r j))) - Ideal.log s) (Finset.sum_congr rfl fun k _ => ?_)
  show Ideal.exp (Z (ix2 r k) - _) = _
  rw [hM k]

end Cert.Sage

end
-- ==== Proof.HostLayers.lean ====
/-
  The two dense layers as whole-array host computations, in the reference program's vocabulary, and what each holds at
  an index.

  Layer one, of an aggregated array `P` and a feature array `X`: `max (P · Wl + X · Wr + b, 0)`.  Layer two: the
  log-softmax along the 40 lanes of `P · Wl + H · Wr + b`.  Row r of either is a function of row r of the two left operands
  only (`Spec`'s `reluRow` and `logitRow`) — which is why a kernel may compute them 2000 rows at a time.
-/
import proofs.«165877_j32968168964350_2_alg».proof.Proof.Gen.ReferenceIdeal
import proofs.«165877_j32968168964350_2_alg».proof.Proof.Rows

noncomputable section

namespace Cert.ReferenceIdeal.Hand

open Cert.ReferenceIdeal Cert.ReferenceIdeal.Gen Idealize.ShloMosaic Idealize.ShloMosaic.ValueIdx Cert.Sage

variable {F : FTy → Type} [FloatOps F]

/-- `P · Wl + X · Wr + b` with 128 output lanes. -/
def affine128 (P X : (⟨S100000x128, .f32⟩ : BufTy).Contents (Elt F)) (Wl Wr : (⟨S128x128, .f32⟩ : BufTy).Contents (Elt F))
    (b : (⟨S128, .f32⟩ : BufTy).Contents (Elt F)) : (⟨S100000x128, .f32⟩ : BufTy).Contents (Elt F) :=
  addf (addf (Host.dotGeneral dot_S100000x128_S128x128_S100000x128_1_0_0_1_n_n none P Wl)
      (Host.dotGeneral dot_S100000x128_S128x128_S100000x128_1_0_0_1_n_n none X Wr))
    (broadcastInDim S100000x128 ![0, 1] bcast_S1x128_S100000x128_0_1 (broadcastInDim S1x128 ![1] bcast_S128_S1x128_1 b))

/-- Layer one: the affine map clamped at zero from below. -/
def layer1 (P X : (⟨S100000x128, .f32⟩ : BufTy).Contents (Elt F)) (Wl Wr : (⟨S128x128, .f32⟩ : BufTy).Contents (Elt F))
    (b : (⟨S128, .f32⟩ : BufTy).Contents (Elt F)) : (⟨S100000x128, .f32⟩ : BufTy).Contents (Elt F) :=
  maximumf (affine128 P X Wl Wr b) (broadcastInDim S100000x128 ![] bcast_S_S100000x128 (constant S_ .f32 0x00000000#32))

/-- `P · Wl + H · Wr + b` with 40 output lanes. -/
def affine40 (P H : (⟨S100000x128, .f32⟩ : BufTy).Contents (Elt F)) (Wl Wr : (⟨S128x40, .f32⟩ : BufTy).Contents (Elt F))
    (b : (⟨S40, .f32⟩ : BufTy).Contents (Elt F)) : (⟨S100000x40, .f32⟩ : BufTy).Contents (Elt F) :=
  addf (addf (Host.dotGeneral dot_S100000x128_S128x40_S100000x40_1_0_0_1_n_n none P Wl)
      (Host.dotGeneral dot_S100000x128_S128x40_S100000x40_1_0_0_1_n_n none H Wr))
    (broadcastInDim S100000x40 ![0, 1] bcast_S1x40_S100000x40_0_1 (broadcastInDim S1x40 ![1] bcast_S40_S1x40_1 b))

/-- Each row's maximum, spread back over the row's lanes. -/
def rowMaxes (z : (⟨S100000x40, .f32⟩ : BufTy).Contents (Elt F)) : (⟨S100000x40, .f32⟩ : BufTy).Contents (Elt F) :=
  broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x40_S100000_d1 h_S_)))

/-- The log-softmax along the lanes. -/
def logSoftmax (z : (⟨S100000x40, .f32⟩ : BufTy).Contents (Elt F)) : (⟨S100000x40, .f32⟩ : BufTy).Contents (Elt F) :=
  subf (subf z (rowMaxes z))
    (broadcastInDim S100000x40 ![0, 1] bcast_S100000x1_S100000x40_0_1 (Host.log (broadcastInDim S100000x1 ![0] bcast_S100000_S100000x1_0
      (Host.reduceAdd (Host.exp (subf z (rowMaxes z))) (constant S_ .f32 0x00000000#32) reducesTo_S100000x40_S100000_d1 h_S_))))

/-- Layer two: the log-softmax of the affine map. -/
def layer2 (P H : (⟨S100000x128, .f32⟩ : BufTy).Contents (Elt F)) (Wl Wr : (⟨S128x40, .f32⟩ : BufTy).Contents (Elt F))
    (b : (⟨S40, .f32⟩ : BufTy).Contents (Elt F)) : (⟨S100000x40, .f32⟩ : BufTy).Contents (Elt F) :=
  logSoftmax (affine40 P H Wl Wr b)

/-- Layer one at (r, q): the clamped affine row of row r of `P` and of `X`. -/
theorem layer1_apply (P X : (⟨S100000x128, .f32⟩ : BufTy).Contents (Elt Ideal)) (Wl Wr : (⟨S128x128, .f32⟩ : BufTy).Contents (Elt Ideal))
    (b : (⟨S128, .f32⟩ : BufTy).Contents (Elt Ideal)) (r : Fin 100000) (q : Fin 128) :
    layer1 (F := Ideal) P X Wl Wr b (ix2 r q) = reluRow (fun k => P (ix2 r k)) (fun k => X (ix2 r k)) Wl Wr b q := by
  show max (affine128 (F := Ideal) P X Wl Wr b (ix2 r q))
    (broadcastInDim S100000x128 ![] bcast_S_S100000x128 (constant (F := Ideal) S_ .f32 0x00000000#32) (ix2 r q)) = _
  unfold affine128
  rw [hostAffine_apply dot_S100000x128_S128x128_S100000x128_1_0_0_1_n_n rfl, IdealLayout.broadcastInDim_scalar_apply]
  rfl

/-- Layer two at (r, q): the log-softmax of the affine row of row r of `P` and of `H`. -/
theorem layer2_apply (P H : (⟨S100000x128, .f32⟩ : BufTy).Contents (Elt Ideal)) (Wl Wr : (⟨S128x40, .f32⟩ : BufTy).Contents (Elt Ideal))
    (b : (⟨S40, .f32⟩ : BufTy).Contents (Elt Ideal)) (r : Fin 100000) (q : Fin 40) :
    layer2 (F := Ideal) P H Wl Wr b (ix2 r q) = logitRow (fun k => P (ix2 r k)) (fun k => H (ix2 r k)) Wl Wr b q := by
  refine (hostLogSoftmax_apply (affine40 (F := Ideal) P H Wl Wr b) reducesTo_S100000x40_S100000_d1 (by decide) h_S_
    bcast_S_S100000 bcast_S100000_S100000x1_0 bcast_S100000x1_S100000x40_0_1 r q).trans ?_
  unfold logitRow affine40
  exact congrArg (fun z => logSoftmaxRow z q)
    (funext fun k => hostAffine_apply dot_S100000x128_S128x40_S100000x40_1_0_0_1_n_n rfl P H Wl Wr b _ _ r k)

end Cert.ReferenceIdeal.Hand

end
-- ==== Proof.KernelLayers.lean ====
/-
  What each launch leaves in its output array, for any contents `V` of the buffers when the launch is entered.

  Each launch runs its body once per block of 2000 node rows and writes the block back.  The body's block is, entry by
  entry, the dense layer's row function (`Spec`) of the same rows of the two row-blocked operands and of the whole weight
  and bias operands; the whole-array layer (`HostLayers`) is that row function of the same rows too.  So every block
  written back is the block of ONE whole array, and since the 50 blocks cover the 100000 rows the output array ends
  holding that array.
-/
import proofs.«165877_j32968168964350_2_alg».proof.Proof.Gen.KernelIdeal.Frame
import proofs.«165877_j32968168964350_2_alg».proof.Proof.HostLayers
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Sage
open Idealize.ShloMosaic.Pipeline (Dat)

theorem off2 : (![0, 0] : Fin 2 → Nat) = fun _ => 0 := funext fun a => by fin_cases a <;> rfl
theorem off1 : (![0] : Fin 1 → Nat) = fun _ => 0 := funext fun a => by fin_cases a; rfl

/-! ## The bodies' blocks, entry by entry -/

/-- The first body's block at (p, q): the clamped affine row of row p of its two row-blocked operands. -/
theorem body1_apply (x0 x1 : Vec Ideal S2000x128 .f32) (x2 x3 : Vec Ideal S128x128 .f32) (x4 : Vec Ideal S128 .f32)
    (p : Fin 2000) (q : Fin 128) :
    k0_pay1 (F := Ideal) x0 x1 x2 x3 x4 (ix2 p q)
      = reluRow (fun k => x0 (ix2 p k)) (fun k => x1 (ix2 p k)) x2 x3 x4 q := by
  unfold k0_pay1 reluRow
  refine congrArg (fun z => max z (Ideal.ofBits .f32 0x00000000#32)) ?_
  refine (affineBlock_apply dot_S2000x128_S128x128_S2000x128_1_0_0_1_n_n rfl _ _ _ _ x4 shapeCasts_S128_S1x128
    broadcasts_S1x128_S2000x128 p q).trans ?_
  simp only [shapeCast_self]
  rfl

/-- The second body's block at (p, q): the log-softmax of the affine row of row p of its two row-blocked operands. -/
theorem body2_apply (x0 x1 : Vec Ideal S2000x128 .f32) (x2 x3 : Vec Ideal S128x40 .f32) (x4 : Vec Ideal S40 .f32)
    (p : Fin 2000) (q : Fin 40) :
    k1_pay1 (F := Ideal) x0 x1 x2 x3 x4 (ix2 p q)
      = logitRow (fun k => x0 (ix2 p k)) (fun k => x1 (ix2 p k)) x2 x3 x4 q := by
  unfold k1_pay1 logitRow
  refine (logSoftmaxBlock_apply _ reduces_S2000x40_S2000 (.inl rfl) rfl rfl shapeCasts_S2000_S2000x1
    broadcasts_S2000x1_S2000x40 p q).trans ?_
  refine congrArg (fun z => logSoftmaxRow z q) (funext fun k => ?_)
  refine (affineBlock_apply dot_S2000x128_S128x40_S2000x40_1_0_0_1_n_n rfl _ _ _ _ x4 shapeCasts_S40_S1x40
    broadcasts_S1x40_S2000x40 p k).trans ?_
  simp only [shapeCast_self]
  rfl

/-! ## The first launch: its output array after the run -/

section Launch1

variable (V : (c : Dev nD) → (b : Ref sig .tc) → Buf (Elt Ideal) ((c : Thread nD τ).loc b))

/-- The printed index maps over the grid: the three row-blocked windows are at block row `t`, block column 0; the weight
    and bias windows at block 0. -/
theorem idx1 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The row of the whole array that row `p` of block `t` is. -/
def row1 (t : Fin cfg0.N) (p : Fin 2000) : Fin 100000 :=
  ⟨2000 * t.val + p.val, by have := t.isLt; have : cfg0.N = 50 := N_0; have := p.isLt; omega⟩

/-- Row `p` of a row-blocked window's block at point `t` is row `2000 t + p` of its array. -/
theorem blk1_0 (c : Dev nD) (t : Fin cfg0.N) (p : Fin 2000) (k : Fin 128) :
    (iblk0 V c 0 t : Vec Ideal S2000x128 .f32) (ix2 p k) = (V c main_v24 : S100000x128.Idx → EReal) (ix2 (row1 t p) k) := by
  obtain ⟨e0, e1, -⟩ := idx1 t
  unfold iblk0
  rw [View.read_apply]
  show V c main_v24 (((cfg0.win 0).blk t).view.emb (ix2 p k)) = _
  refine congrArg _ (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

theorem blk1_1 (c : Dev nD) (t : Fin cfg0.N) (p : Fin 2000) (k : Fin 128) :
    (iblk0 V c 1 t : Vec Ideal S2000x128 .f32) (ix2 p k) = (V c main_arg0 : S100000x128.Idx → EReal) (ix2 (row1 t p) k) := by
  obtain ⟨-, -, e0, e1, -⟩ := idx1 t
  unfold iblk0
  rw [View.read_apply]
  show V c main_arg0 (((cfg0.win 1).blk t).view.emb (ix2 p k)) = _
  refine congrArg _ (funext fun a => Fin.ext ?_)
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

/-- The weight and bias windows' one block is the whole array. -/
theorem blk1_2 (c : Dev nD) (t : Fin cfg0.N) : (iblk0 V c 2 t : Vec Ideal S128x128 .f32) = (V c main_arg2 : S128x128.Idx → EReal) := by
  obtain ⟨-, -, -, -, e0, e1, -⟩ := idx1 t
  funext y
  unfold iblk0
  rw [View.read_apply]
  show V c main_arg2 (((cfg0.win 2).blk t).view.emb y) = _
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk1_3 (c : Dev nD) (t : Fin cfg0.N) : (iblk0 V c 3 t : Vec Ideal S128x128 .f32) = (V c main_arg3 : S128x128.Idx → EReal) := by
  obtain ⟨-, -, -, -, -, -, e0, e1, -⟩ := idx1 t
  funext y
  unfold iblk0
  rw [View.read_apply]
  show V c main_arg3 (((cfg0.win 3).blk t).view.emb y) = _
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem blk1_4 (c : Dev nD) (t : Fin cfg0.N) : (iblk0 V c 4 t : Vec Ideal S128 .f32) = (V c main_arg4 : S128.Idx → EReal) := by
  obtain ⟨-, -, -, -, -, -, -, -, e0, -⟩ := idx1 t
  funext y
  unfold iblk0
  rw [View.read_apply]
  show V c main_arg4 (((cfg0.win 4).blk t).view.emb y) = _
  refine congrArg _ (funext fun a => Fin.ext ?_)
  match a with
  | ⟨0, _⟩ => show win0_4.index t (0 : Fin 1) * 128 + 1 * (y 0).val = (y 0).val; rw [e0]; omega

/-- What point `t` writes back is block `t` of layer one of the arrays as the launch finds them. -/
theorem flushed1_eq (c : Dev nD) (t : Fin cfg0.N) :
    (dat0 V c).flushed 5 t = ((cfg0.win 5).blk t).view.read (Elt Ideal)
      (Cert.ReferenceIdeal.Hand.layer1 (F := Ideal) (V c main_v24) (V c main_arg0) (V c main_arg2) (V c main_arg3) (V c main_arg4)) := by
  show (cfg0.win 5).cut (grid0.coords t) ((dat0 V c).after 5 t) = _
  rw [after0_5]
  unfold out0_5
  rw [View.canon_unit_zero off2]
  simp only [View.ld_unit_zero (S := S2000x128) off2, View.ld_unit_zero (S := S128x128) off2, View.ld_unit_zero (S := S128) off1]
  funext j
  obtain ⟨p, q, rfl⟩ : ∃ (p : Fin 2000) (q : Fin 128), j = ix2 p q := ⟨j 0, j 1, eq_ix2 j⟩
  obtain ⟨-, -, -, -, -, -, -, -, -, e0, e1⟩ := idx1 t
  have hemb : ((cfg0.win 5).blk t).view.emb (ix2 p q) = ix2 (row1 t p) q := funext fun a => Fin.ext (by
    match a with
    | ⟨0, _⟩ => show win0_5.index t (0 : Fin 2) * 2000 + 1 * p.val = 2000 * t.val + p.val; rw [e0]; omega
    | ⟨1, _⟩ => show win0_5.index t (1 : Fin 2) * 128 + 1 * q.val = q.val; rw [e1]; omega)
  show k0_pay1 (F := Ideal) (iblk0 V c 0 t) (iblk0 V c 1 t) (iblk0 V c 2 t) (iblk0 V c 3 t) (iblk0 V c 4 t) (ix2 p q)
    = Cert.ReferenceIdeal.Hand.layer1 (F := Ideal) (V c main_v24) (V c main_arg0) (V c main_arg2) (V c main_arg3) (V c main_arg4)
        (((cfg0.win 5).blk t).view.emb (ix2 p q))
  rw [hemb, Cert.ReferenceIdeal.Hand.layer1_apply]
  refine (body1_apply _ _ _ _ _ p q).trans ?_
  rw [blk1_2 V c t, blk1_3 V c t, blk1_4 V c t]
  exact congrArg₂ (fun f g => reluRow f g (V c main_arg2 : S128x128.Idx → EReal) (V c main_arg3 : S128x128.Idx → EReal)
      (V c main_arg4 : S128.Idx → EReal) q)
    (funext fun k => blk1_0 V c t p k) (funext fun k => blk1_1 V c t p k)

/-- An index of the output array is in point `t`'s block iff each coordinate is in the block's range on its axis. -/
theorem mem_blk1 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v25).slice (win0_5.rect t)).set ↔ _
  rw [View.set_slice_whole, Rect.mem_set_unit]
  exact Iff.rfl

/-- Every row is in the block of the point `row / 2000`. -/
theorem cover1 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  refine ⟨⟨(i 0).val / 2000, by omega⟩, flush0_5 _, ?_⟩
  obtain ⟨-, -, -, -, -, -, -, -, -, e0, e1⟩ := idx1 ⟨(i 0).val / 2000, by omega⟩
  rw [mem_blk1]
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [e1]; omega

/-- After the first launch its output array holds layer one of the arrays as the launch found them. -/
theorem array1 (c : Dev nD) : (dat0 V c).arrAt 5 cfg0.N
    = Cert.ReferenceIdeal.Hand.layer1 (F := Ideal) (V c main_v24) (V c main_arg0) (V c main_arg2) (V c main_arg3) (V c main_arg4) :=
  (dat0 V c).arrAt_eq_of_cover 5 _ (fun t _ => flushed1_eq V c t) cover1

end Launch1

/-! ## The second launch: its output array after the run -/

section Launch2

variable (V : (c : Dev nD) → (b : Ref sig .tc) → Buf (Elt Ideal) ((c : Thread nD τ).loc b))

/-- The printed index maps over the grid, as for the first launch. -/
theorem idx2 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The row of the whole array that row `p` of block `t` is. -/
def row2 (t : Fin cfg1.N) (p : Fin 2000) : Fin 100000 :=
  ⟨2000 * t.val + p.val, by have := t.isLt; have : cfg1.N = 50 := N_1; have := p.isLt; omega⟩

theorem blk2_0 (c : Dev nD) (t : Fin cfg1.N) (p : Fin 2000) (k : Fin 128) :
    (iblk1 V c 0 t : Vec Ideal S2000x128 .f32) (ix2 p k) = (V c main_v38 : S100000x128.Idx → EReal) (ix2 (row2 t p) k) := by
  obtain ⟨e0, e1, -⟩ := idx2 t
  unfold iblk1
  rw [View.read_apply]
  show V c main_v38 (((cfg1.win 0).blk t).view.emb (ix2 p k)) = _
  refine congrArg _ (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 128 + 1 * k.val = k.val; rw [e1]; omega

theorem blk2_1 (c : Dev nD) (t : Fin cfg1.N) (p : Fin 2000) (k : Fin 128) :
    (iblk1 V c 1 t : Vec Ideal S2000x128 .f32) (ix2 p k) = (V c main_v25 : S100000x128.Idx → EReal) (ix2 (row2 t p) k) := by
  obtain ⟨-, -, e0, e1, -⟩ := idx2 t
  unfold iblk1
  rw [View.read_apply]
  show V c main_v25 (((cfg1.win 1).blk t).view.emb (ix2 p k)) = _
  refine congrArg _ (funext fun a => Fin.ext ?_)
  match a with
  | ⟨0, _⟩ => show win1_1.index t (0 : Fin 2) * 2000 + 1 * p.val = 2000 * t.val + p.val; rw [e0]; omega
  | ⟨1, _⟩ => show win1_1.index t (1 : Fin 2) * 128 + 1 * k.val = k.val; rw [e1]; omega

theorem blk2_2 (c : Dev nD) (t : Fin cfg1.N) : (iblk1 V c 2 t : Vec Ideal S128x40 .f32) = (V c main_arg5 : S128x40.Idx → EReal) := by
  obtain ⟨-, -, -, -, e0, e1, -⟩ := idx2 t
  funext y
  unfold iblk1
  rw [View.read_apply]
  show V c main_arg5 (((cfg1.win 2).blk t).view.emb y) = _
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 40 + 1 * (y 1).val = (y 1).val; rw [e1]; omega

theorem blk2_3 (c : Dev nD) (t : Fin cfg1.N) : (iblk1 V c 3 t : Vec Ideal S128x40 .f32) = (V c main_arg6 : S128x40.Idx → EReal) := by
  obtain ⟨-, -, -, -, -, -, e0, e1, -⟩ := idx2 t
  funext y
  unfold iblk1
  rw [View.read_apply]
  show V c main_arg6 (((cfg1.win 3).blk t).view.emb y) = _
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 40 + 1 * (y 1).val = (y 1).val; rw [e1]; omega

theorem blk2_4 (c : Dev nD) (t : Fin cfg1.N) : (iblk1 V c 4 t : Vec Ideal S40 .f32) = (V c main_arg7 : S40.Idx → EReal) := by
  obtain ⟨-, -, -, -, -, -, -, -, e0, -⟩ := idx2 t
  funext y
  unfold iblk1
  rw [View.read_apply]
  show V c main_arg7 (((cfg1.win 4).blk t).view.emb y) = _
  refine congrArg _ (funext fun a => Fin.ext ?_)
  match a with
  | ⟨0, _⟩ => show win1_4.index t (0 : Fin 1) * 40 + 1 * (y 0).val = (y 0).val; rw [e0]; omega

/-- What point `t` writes back is block `t` of layer two of the arrays as the launch finds them. -/
theorem flushed2_eq (c : Dev nD) (t : Fin cfg1.N) :
    (dat1 V c).flushed 5 t = ((cfg1.win 5).blk t).view.read (Elt Ideal)
      (Cert.ReferenceIdeal.Hand.layer2 (F := Ideal) (V c main_v38) (V c main_v25) (V c main_arg5) (V c main_arg6) (V c main_arg7)) := by
  show (cfg1.win 5).cut (grid1.coords t) ((dat1 V c).after 5 t) = _
  rw [after1_5]
  unfold out1_5
  rw [View.canon_unit_zero off2]
  simp only [View.ld_unit_zero (S := S2000x128) off2, View.ld_unit_zero (S := S128x40) off2, View.ld_unit_zero (S := S40) off1]
  funext j
  obtain ⟨p, q, rfl⟩ : ∃ (p : Fin 2000) (q : Fin 40), j = ix2 p q := ⟨j 0, j 1, eq_ix2 j⟩
  obtain ⟨-, -, -, -, -, -, -, -, -, e0, e1⟩ := idx2 t
  have hemb : ((cfg1.win 5).blk t).view.emb (ix2 p q) = ix2 (row2 t p) q := funext fun a => Fin.ext (by
    match a with
    | ⟨0, _⟩ => show win1_5.index t (0 : Fin 2) * 2000 + 1 * p.val = 2000 * t.val + p.val; rw [e0]; omega
    | ⟨1, _⟩ => show win1_5.index t (1 : Fin 2) * 40 + 1 * q.val = q.val; rw [e1]; omega)
  show k1_pay1 (F := Ideal) (iblk1 V c 0 t) (iblk1 V c 1 t) (iblk1 V c 2 t) (iblk1 V c 3 t) (iblk1 V c 4 t) (ix2 p q)
    = Cert.ReferenceIdeal.Hand.layer2 (F := Ideal) (V c main_v38) (V c main_v25) (V c main_arg5) (V c main_arg6) (V c main_arg7)
        (((cfg1.win 5).blk t).view.emb (ix2 p q))
  rw [hemb, Cert.ReferenceIdeal.Hand.layer2_apply]
  refine (body2_apply _ _ _ _ _ p q).trans ?_
  rw [blk2_2 V c t, blk2_3 V c t, blk2_4 V c t]
  exact congrArg₂ (fun f g => logitRow f g (V c main_arg5 : S128x40.Idx → EReal) (V c main_arg6 : S128x40.Idx → EReal)
      (V c main_arg7 : S40.Idx → EReal) q)
    (funext fun k => blk2_0 V c t p k) (funext fun k => blk2_1 V c t p k)

theorem mem_blk2 (t : Fin cfg1.N) (i : S100000x40.Idx) :
    i ∈ ((cfg1.win 5).blk t).view.set ↔ ∀ a : Fin 2, win1_5.index t a * S2000x40.size a ≤ (i a).val ∧ (i a).val < win1_5.index t a * S2000x40.size a + S2000x40.size a := by
  show i ∈ ((View.whole main_v39).slice (win1_5.rect t)).set ↔ _
  rw [View.set_slice_whole, Rect.mem_set_unit]
  exact Iff.rfl

theorem cover2 (i : S100000x40.Idx) : ∃ t : Fin cfg1.N, (cfg1.win 5).flush t = true ∧ i ∈ ((cfg1.win 5).blk t).view.set := by
  have hi0 : (i 0).val < 100000 := (i 0).isLt
  have hi1 : (i 1).val < 40 := (i 1).isLt
  have hN : cfg1.N = 50 := N_1
  refine ⟨⟨(i 0).val / 2000, by omega⟩, flush1_5 _, ?_⟩
  obtain ⟨-, -, -, -, -, -, -, -, -, e0, e1⟩ := idx2 ⟨(i 0).val / 2000, by omega⟩
  rw [mem_blk2]
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 40 ≤ (i 1).val ∧ (i 1).val < win1_5.index _ (1 : Fin 2) * 40 + 40
    rw [e1]; omega

/-- After the second launch its output array holds layer two of the arrays as the launch found them. -/
theorem array2 (c : Dev nD) : (dat1 V c).arrAt 5 cfg1.N
    = Cert.ReferenceIdeal.Hand.layer2 (F := Ideal) (V c main_v38) (V c main_v25) (V c main_arg5) (V c main_arg6) (V c main_arg7) :=
  (dat1 V c).arrAt_eq_of_cover 5 _ (fun t _ => flushed2_eq V c t) cover2

end Launch2

end Cert.KernelIdeal.Hand

end
-- ==== Proof.RefSpec.lean ====
/-
  The reference's computation as one function of its arguments, built from named pieces.

  For every node the mean of its in-neighbours' feature rows: the rows of the edges' source nodes (a negative index counted
  from the end) added into the destination nodes' rows, each row divided by the node's in-degree clamped at one.  The hidden
  features are layer one of those means of the input and the input itself; the result is layer two of the means of the hidden
  features and the hidden features.
-/
import proofs.«165877_j32968168964350_2_alg».proof.Proof.HostLayers

noncomputable section

namespace Cert.ReferenceIdeal.Hand

open Cert.ReferenceIdeal Cert.ReferenceIdeal.Gen Idealize.ShloMosaic

variable {F : FTy → Type} [FloatOps F]

/-! ## The pieces of the computation -/

/-- The source node of every edge: row 0 of the edge list. -/
def srcVec (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The destination node of every edge: row 1 of the edge list. -/
def dstVec (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Every node's in-degree, clamped at one from below. -/
def degVec (dst : (⟨S1600000, .i32⟩ : BufTy).Contents (Elt F)) : (⟨S100000, .f32⟩ : BufTy).Contents (Elt F) :=
  maximumf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- The sum, per destination node, of the feature rows of its edges' source nodes (a negative source index counted from the end). -/
def nbrSum (feat : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 feat
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A per-node number spread over the node's 128 lanes. -/
def perRow (v : (⟨S100000, .f32⟩ : BufTy).Contents (Elt F)) : (⟨S100000x128, .f32⟩ : BufTy).Contents (Elt F) :=
  broadcastInDim S100000x128 ![0, 1] bcast_S100000x1_S100000x128_0_1 (broadcastInDim S100000x1 ![0] bcast_S100000_S100000x1_0 v)

/-- The mean of every node's in-neighbours' rows: the neighbour sums divided by the clamped in-degrees. -/
def meanNbr (feat : (⟨S100000x128, .f32⟩ : BufTy).Contents (Elt F)) (src dst : (⟨S1600000, .i32⟩ : BufTy).Contents (Elt F)) : (⟨S100000x128, .f32⟩ : BufTy).Contents (Elt F) :=
  Host.divf (nbrSum feat src dst) (perRow (degVec dst))

/-- The hidden features. -/
def hidden (x : (⟨S100000x128, .f32⟩ : BufTy).Contents (Elt F)) (e : (⟨S2x1600000, .i32⟩ : BufTy).Contents (Elt F)) (W1l W1r : (⟨S128x128, .f32⟩ : BufTy).Contents (Elt F))
    (b1 : (⟨S128, .f32⟩ : BufTy).Contents (Elt F)) : (⟨S100000x128, .f32⟩ : BufTy).Contents (Elt F) :=
  layer1 (meanNbr x (srcVec e) (dstVec e)) x W1l W1r b1

/-- The result. -/
def output (x : (⟨S100000x128, .f32⟩ : BufTy).Contents (Elt F)) (e : (⟨S2x1600000, .i32⟩ : BufTy).Contents (Elt F)) (W1l W1r : (⟨S128x128, .f32⟩ : BufTy).Contents (Elt F))
    (b1 : (⟨S128, .f32⟩ : BufTy).Contents (Elt F)) (W2l W2r : (⟨S128x40, .f32⟩ : BufTy).Contents (Elt F)) (b2 : (⟨S40, .f32⟩ : BufTy).Contents (Elt F)) : (⟨S100000x40, .f32⟩ : BufTy).Contents (Elt F) :=
  layer2 (meanNbr (hidden x e W1l W1r b1) (srcVec e) (dstVec e)) (hidden x e W1l W1r b1) W2l W2r b2

end Cert.ReferenceIdeal.Hand

end
-- ==== Proof.LibIdealReal.lean ====
/-
  General lemmas, independent of any one program: "every entry of an array is a real number" (and its
  refinements "a nonnegative real", "a positive real") is carried through the operations of a program read
  at the ideal instance, where a float is an extended real and every operation is the exact one.  The two
  infinities are the only extended reals that are not reals; sums, differences, products and maxima of
  reals are reals, a quotient by a positive real is a real, the reciprocal square root of a positive real
  is a positive real, a real power of a real is a real, a finite sum of reals is a real, and an operation
  that only re-indexes an array (broadcast, reshape, slice, gather) returns entries of its operand.
-/
import Idealize.ShloMosaic.PureOps.Ideal.Laws

namespace Cert.LibIdealReal

open Idealize.ShloMosaic
open scoped BigOperators

/-- Every entry of the array is a real number (neither infinity). -/
def AllReal {s : Shape} {φ : FTy} (v : FVec Ideal s φ) : Prop := ∀ i, ∃ r : ℝ, v i = (r : EReal)

/-- Every entry of the array is a nonnegative real number. -/
def AllNonneg {s : Shape} {φ : FTy} (v : FVec Ideal s φ) : Prop := ∀ i, ∃ r : ℝ, 0 ≤ r ∧ v i = (r : EReal)

/-- Every entry of the array is a positive real number. -/
def AllPos {s : Shape} {φ : FTy} (v : FVec Ideal s φ) : Prop := ∀ i, ∃ r : ℝ, 0 < r ∧ v i = (r : EReal)

section Pointwise
variable {s : Shape} {φ : FTy}

/-- A nonnegative real is a real. -/
theorem AllNonneg.allReal {x : FVec Ideal s φ} (hx : AllNonneg x) : AllReal x :=
  fun i => let ⟨r, _, h⟩ := hx i; ⟨r, h⟩

/-- A positive real is a real. -/
theorem AllPos.allReal {x : FVec Ideal s φ} (hx : AllPos x) : AllReal x :=
  fun i => let ⟨r, _, h⟩ := hx i; ⟨r, h⟩

/-- A positive real is a nonnegative real. -/
theorem AllPos.allNonneg {x : FVec Ideal s φ} (hx : AllPos x) : AllNonneg x :=
  fun i => let ⟨r, hr, h⟩ := hx i; ⟨r, hr.le, h⟩

/-- The sum of two reals is a real: (a : EReal) + (b : EReal) = ((a + b : ℝ) : EReal). -/
theorem allReal_addf {x y : FVec Ideal s φ} (hx : AllReal x) (hy : AllReal y) : AllReal (addf x y) := by
  intro i
  obtain ⟨a, ha⟩ := hx i
  obtain ⟨b, hb⟩ := hy i
  refine ⟨a + b, ?_⟩
  show x i + y i = _
  rw [ha, hb, EReal.coe_add]

/-- The difference of two reals is a real. -/
theorem allReal_subf {x y : FVec Ideal s φ} (hx : AllReal x) (hy : AllReal y) : AllReal (subf x y) := by
  intro i
  obtain ⟨a, ha⟩ := hx i
  obtain ⟨b, hb⟩ := hy i
  refine ⟨a - b, ?_⟩
  show x i - y i = _
  rw [ha, hb, EReal.coe_sub]

/-- The product of two reals is a real. -/
theorem allReal_mulf {x y : FVec Ideal s φ} (hx : AllReal x) (hy : AllReal y) : AllReal (mulf x y) := by
  intro i
  obtain ⟨a, ha⟩ := hx i
  obtain ⟨b, hb⟩ := hy i
  refine ⟨a * b, ?_⟩
  show x i * y i = _
  rw [ha, hb, EReal.coe_mul]

/-- The maximum of two reals is one of them, hence a real. -/
theorem allReal_maximumf {x y : FVec Ideal s φ} (hx : AllReal x) (hy : AllReal y) : AllReal (maximumf x y) := by
  intro i
  obtain ⟨a, ha⟩ := hx i
  obtain ⟨b, hb⟩ := hy i
  show ∃ r : ℝ, max (x i) (y i) = (r : EReal)
  rcases le_total (x i) (y i) with h | h
  · exact ⟨b, by rw [max_eq_right h, hb]⟩
  · exact ⟨a, by rw [max_eq_left h, ha]⟩

/-- The maximum of a real and a nonnegative real is a nonnegative real (the rectifier max(x, 0)). -/
theorem allNonneg_maximumf_right {x y : FVec Ideal s φ} (hx : AllReal x) (hy : AllNonneg y) :
    AllNonneg (maximumf x y) := by
  intro i
  obtain ⟨a, ha⟩ := hx i
  obtain ⟨b, hb0, hb⟩ := hy i
  show ∃ r : ℝ, 0 ≤ r ∧ max (x i) (y i) = (r : EReal)
  rcases le_total (x i) (y i) with h | h
  · exact ⟨b, hb0, by rw [max_eq_right h, hb]⟩
  · refine ⟨a, ?_, by rw [max_eq_left h, ha]⟩
    rw [ha, hb] at h
    exact hb0.trans (EReal.coe_le_coe_iff.mp h)

/-- The square of a real is a nonnegative real. -/
theorem allNonneg_mulf_self {x : FVec Ideal s φ} (hx : AllReal x) : AllNonneg (mulf x x) := by
  intro i
  obtain ⟨a, ha⟩ := hx i
  refine ⟨a * a, mul_self_nonneg a, ?_⟩
  show x i * x i = _
  rw [ha, EReal.coe_mul]

/-- The product of two nonnegative reals is a nonnegative real. -/
theorem allNonneg_mulf {x y : FVec Ideal s φ} (hx : AllNonneg x) (hy : AllNonneg y) : AllNonneg (mulf x y) := by
  intro i
  obtain ⟨a, ha0, ha⟩ := hx i
  obtain ⟨b, hb0, hb⟩ := hy i
  refine ⟨a * b, mul_nonneg ha0 hb0, ?_⟩
  show x i * y i = _
  rw [ha, hb, EReal.coe_mul]

/-- The sum of two nonnegative reals is a nonnegative real. -/
theorem allNonneg_addf {x y : FVec Ideal s φ} (hx : AllNonneg x) (hy : AllNonneg y) : AllNonneg (addf x y) := by
  intro i
  obtain ⟨a, ha0, ha⟩ := hx i
  obtain ⟨b, hb0, hb⟩ := hy i
  refine ⟨a + b, add_nonneg ha0 hb0, ?_⟩
  show x i + y i = _
  rw [ha, hb, EReal.coe_add]

/-- A nonnegative real plus a positive real is a positive real. -/
theorem allPos_addf {x y : FVec Ideal s φ} (hx : AllNonneg x) (hy : AllPos y) : AllPos (addf x y) := by
  intro i
  obtain ⟨a, ha0, ha⟩ := hx i
  obtain ⟨b, hb0, hb⟩ := hy i
  refine ⟨a + b, add_pos_of_nonneg_of_pos ha0 hb0, ?_⟩
  show x i + y i = _
  rw [ha, hb, EReal.coe_add]

/-- A real divided by a positive real is a real: for b ≠ 0 the quotient is the product with 1 / b. -/
theorem allReal_hostDivf {x y : FVec Ideal s φ} (hx : AllReal x) (hy : AllPos y) : AllReal (Host.divf x y) := by
  intro i
  obtain ⟨a, ha⟩ := hx i
  obtain ⟨b, hb0, hb⟩ := hy i
  refine ⟨a * (1 / b), ?_⟩
  show Ideal.div (x i) (y i) = _
  rw [ha, hb, Ideal.div_coe hb0.ne', EReal.coe_mul]

/-- A nonnegative real divided by a positive real is a nonnegative real. -/
theorem allNonneg_hostDivf {x y : FVec Ideal s φ} (hx : AllNonneg x) (hy : AllPos y) :
    AllNonneg (Host.divf x y) := by
  intro i
  obtain ⟨a, ha0, ha⟩ := hx i
  obtain ⟨b, hb0, hb⟩ := hy i
  refine ⟨a * (1 / b), mul_nonneg ha0 (one_div_pos.mpr hb0).le, ?_⟩
  show Ideal.div (x i) (y i) = _
  rw [ha, hb, Ideal.div_coe hb0.ne', EReal.coe_mul]

/-- The reciprocal square root of a positive real r is the positive real (√r)⁻¹. -/
theorem allPos_hostRsqrt {x : FVec Ideal s φ} (hx : AllPos x) : AllPos (Host.rsqrt x) := by
  intro i
  obtain ⟨a, ha0, ha⟩ := hx i
  refine ⟨(Real.sqrt a)⁻¹, inv_pos.mpr (Real.sqrt_pos.mpr ha0), ?_⟩
  show Ideal.rsqrt (x i) = _
  rw [ha, Ideal.rsqrt_coe, if_neg (not_lt.mpr ha0.le), if_neg ha0.ne']

/-- The reciprocal square root of a positive real is a real. -/
theorem allReal_hostRsqrt {x : FVec Ideal s φ} (hx : AllPos x) : AllReal (Host.rsqrt x) :=
  (allPos_hostRsqrt hx).allReal

/-- A real power of a real is a real (the real power function is total on the reals). -/
theorem allReal_hostPowf {x y : FVec Ideal s φ} (hx : AllReal x) (hy : AllReal y) : AllReal (Host.powf x y) := by
  intro i
  obtain ⟨a, ha⟩ := hx i
  obtain ⟨b, hb⟩ := hy i
  refine ⟨Real.rpow a b, ?_⟩
  show Ideal.pow (x i) (y i) = _
  rw [ha, hb, Ideal.pow_coe_coe]

/-- A real power of a positive real is a positive real. -/
theorem allPos_hostPowf {x y : FVec Ideal s φ} (hx : AllPos x) (hy : AllReal y) : AllPos (Host.powf x y) := by
  intro i
  obtain ⟨a, ha0, ha⟩ := hx i
  obtain ⟨b, hb⟩ := hy i
  refine ⟨Real.rpow a b, Real.rpow_pos_of_pos ha0 b, ?_⟩
  show Ideal.pow (x i) (y i) = _
  rw [ha, hb, Ideal.pow_coe_coe]

end Pointwise

section Layout
variable {s t : Shape} {φ : FTy}

/-- Each entry of a broadcast is an entry of the operand: reals stay reals. -/
theorem allReal_broadcastInDim (dims : Fin s.rank → Fin t.rank) (h : s.BroadcastsInDim t dims)
    {x : FVec Ideal s φ} (hx : AllReal x) : AllReal (φ := φ) (broadcastInDim t dims h x) :=
  fun _ => hx _

/-- Each entry of a broadcast is an entry of the operand: nonnegative reals stay nonnegative reals. -/
theorem allNonneg_broadcastInDim (dims : Fin s.rank → Fin t.rank) (h : s.BroadcastsInDim t dims)
    {x : FVec Ideal s φ} (hx : AllNonneg x) : AllNonneg (φ := φ) (broadcastInDim t dims h x) :=
  fun _ => hx _

/-- Each entry of a broadcast is an entry of the operand: positive reals stay positive reals. -/
theorem allPos_broadcastInDim (dims : Fin s.rank → Fin t.rank) (h : s.BroadcastsInDim t dims)
    {x : FVec Ideal s φ} (hx : AllPos x) : AllPos (φ := φ) (broadcastInDim t dims h x) :=
  fun _ => hx _

/-- A reshape holds the same entries in row-major order under another shape: reals stay reals. -/
theorem allReal_shapeCast {x : FVec Ideal s φ} (h : s.ShapeCasts t) (hx : AllReal x) :
    AllReal (φ := φ) (shapeCast t x h) :=
  fun _ => hx _

/-- A reshape holds the same entries: nonnegative reals stay nonnegative reals. -/
theorem allNonneg_shapeCast {x : FVec Ideal s φ} (h : s.ShapeCasts t) (hx : AllNonneg x) :
    AllNonneg (φ := φ) (shapeCast t x h) :=
  fun _ => hx _

/-- A reshape holds the same entries: positive reals stay positive reals. -/
theorem allPos_shapeCast {x : FVec Ideal s φ} (h : s.ShapeCasts t) (hx : AllPos x) :
    AllPos (φ := φ) (shapeCast t x h) :=
  fun _ => hx _

/-- Each entry of a slice is the operand's entry at the offset index: reals stay reals. -/
theorem allReal_extractStridedSlice (off : Fin s.rank → Nat) {x : FVec Ideal s φ} (h : s.Slices off t)
    (hx : AllReal x) : AllReal (φ := φ) (extractStridedSlice t off x h) :=
  fun _ => hx _

/-- Each entry of a slice is an entry of the operand: nonnegative reals stay nonnegative reals. -/
theorem allNonneg_extractStridedSlice (off : Fin s.rank → Nat) {x : FVec Ideal s φ} (h : s.Slices off t)
    (hx : AllNonneg x) : AllNonneg (φ := φ) (extractStridedSlice t off x h) :=
  fun _ => hx _

/-- Each entry of a slice is an entry of the operand: positive reals stay positive reals. -/
theorem allPos_extractStridedSlice (off : Fin s.rank → Nat) {x : FVec Ideal s φ} (h : s.Slices off t)
    (hx : AllPos x) : AllPos (φ := φ) (extractStridedSlice t off x h) :=
  fun _ => hx _

/-- Each entry of a gather is the operand's entry at the (clamped) index the index array names:
    reals stay reals, whatever the indices. -/
theorem allReal_hostGather {si : Shape} {w : Nat} (d : GatherDims s si t) {x : FVec Ideal s φ} (idx : IVec si w)
    (hx : AllReal x) : AllReal (φ := φ) (Host.gather d x idx) :=
  fun _ => hx _

/-- Each entry of a gather is an entry of the operand: nonnegative reals stay nonnegative reals. -/
theorem allNonneg_hostGather {si : Shape} {w : Nat} (d : GatherDims s si t) {x : FVec Ideal s φ} (idx : IVec si w)
    (hx : AllNonneg x) : AllNonneg (φ := φ) (Host.gather d x idx) :=
  fun _ => hx _

/-- Each entry of a gather is an entry of the operand: positive reals stay positive reals. -/
theorem allPos_hostGather {si : Shape} {w : Nat} (d : GatherDims s si t) {x : FVec Ideal s φ} (idx : IVec si w)
    (hx : AllPos x) : AllPos (φ := φ) (Host.gather d x idx) :=
  fun _ => hx _

end Layout

section Sums

/-- A finite sum of reals, each read as an extended real, is the real sum read as an extended real. -/
theorem coe_finset_sum {ι : Type} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A finite sum of extended reals each of which is a real is a real. -/
theorem exists_real_sum {ι : Type} (S : Finset ι) (g : ι → EReal) (hg : ∀ i, ∃ r : ℝ, g i = (r : EReal)) :
    ∃ r : ℝ, ∑ i ∈ S, g i = (r : EReal) := by
  choose f hf using hg
  exact ⟨∑ i ∈ S, f i, by rw [← coe_finset_sum]; exact Finset.sum_congr rfl fun i _ => hf i⟩

/-- A finite sum of extended reals each of which is a nonnegative real is a nonnegative real. -/
theorem exists_nonneg_sum {ι : Type} (S : Finset ι) (g : ι → EReal)
    (hg : ∀ i, ∃ r : ℝ, 0 ≤ r ∧ g i = (r : EReal)) : ∃ r : ℝ, 0 ≤ r ∧ ∑ i ∈ S, g i = (r : EReal) := by
  choose f hf0 hf using hg
  exact ⟨∑ i ∈ S, f i, Finset.sum_nonneg fun i _ => hf0 i,
    by rw [← coe_finset_sum]; exact Finset.sum_congr rfl fun i _ => hf i⟩

variable {s t u : Shape} {φ : FTy}

/-- The host's sum over some axes: at each kept index, the initial value plus the sum of the operand's
    entries that reduce to it — a finite sum of reals, hence a real. -/
theorem allReal_hostReduceAdd {axes : List (Fin s.rank)} {x : FVec Ideal s φ} {v : FVec Ideal u φ}
    (hred : s.ReducesTo axes t) (hS : 0 < u.numel) (hx : AllReal x) (hv : AllReal v) :
    AllReal (Host.reduceAdd (F := Ideal) x v hred hS) := by
  intro j
  obtain ⟨a, ha⟩ := hv (Shape.Idx.first hS)
  obtain ⟨b, hb⟩ := exists_real_sum (Finset.univ.filter fun i => hred.drop i = j) x hx
  refine ⟨a + b, ?_⟩
  have h : Host.reduceAdd (F := Ideal) x v hred hS j
      = v (Shape.Idx.first hS) + ∑ i ∈ Finset.univ.filter (fun i => hred.drop i = j), x i := rfl
  rw [h, ha, hb, EReal.coe_add]

/-- The host's sum of nonnegative reals from a nonnegative initial value is a nonnegative real. -/
theorem allNonneg_hostReduceAdd {axes : List (Fin s.rank)} {x : FVec Ideal s φ} {v : FVec Ideal u φ}
    (hred : s.ReducesTo axes t) (hS : 0 < u.numel) (hx : AllNonneg x) (hv : AllNonneg v) :
    AllNonneg (Host.reduceAdd (F := Ideal) x v hred hS) := by
  intro j
  obtain ⟨a, ha0, ha⟩ := hv (Shape.Idx.first hS)
  obtain ⟨b, hb0, hb⟩ := exists_nonneg_sum (Finset.univ.filter fun i => hred.drop i = j) x hx
  refine ⟨a + b, add_nonneg ha0 hb0, ?_⟩
  have h : Host.reduceAdd (F := Ideal) x v hred hS j
      = v (Shape.Idx.first hS) + ∑ i ∈ Finset.univ.filter (fun i => hred.drop i = j), x i := rfl
  rw [h, ha, hb, EReal.coe_add]

/-- The host's accumulating scatter: each operand entry plus the sum of the update entries whose index
    lands on it — a finite sum of reals, hence a real, whatever the indices. -/
theorem allReal_hostScatterAdd {si : Shape} {w : Nat} (d : ScatterDims s si u) {x : FVec Ideal s φ}
    (idx : IVec si w) {upd : FVec Ideal u φ} (hx : AllReal x) (hu : AllReal upd) :
    AllReal (Host.scatterAdd (F := Ideal) d x idx upd) := by
  intro i
  obtain ⟨a, ha⟩ := hx i
  obtain ⟨b, hb⟩ := exists_real_sum (Finset.univ.filter fun j => d.resultIdx? j idx = some i) upd hu
  refine ⟨a + b, ?_⟩
  have h : Host.scatterAdd (F := Ideal) d x idx upd i
      = x i + ∑ j ∈ Finset.univ.filter (fun j => d.resultIdx? j idx = some i), upd j := rfl
  rw [h, ha, hb, EReal.coe_add]

/-- The accumulating scatter of nonnegative reals into nonnegative reals gives nonnegative reals. -/
theorem allNonneg_hostScatterAdd {si : Shape} {w : Nat} (d : ScatterDims s si u) {x : FVec Ideal s φ}
    (idx : IVec si w) {upd : FVec Ideal u φ} (hx : AllNonneg x) (hu : AllNonneg upd) :
    AllNonneg (Host.scatterAdd (F := Ideal) d x idx upd) := by
  intro i
  obtain ⟨a, ha0, ha⟩ := hx i
  obtain ⟨b, hb0, hb⟩ := exists_nonneg_sum (Finset.univ.filter fun j => d.resultIdx? j idx = some i) upd hu
  refine ⟨a + b, add_nonneg ha0 hb0, ?_⟩
  have h : Host.scatterAdd (F := Ideal) d x idx upd i
      = x i + ∑ j ∈ Finset.univ.filter (fun j => d.resultIdx? j idx = some i), upd j := rfl
  rw [h, ha, hb, EReal.coe_add]

end Sums

section Contraction
variable {sl sr so : Shape} {φ₁ φ₂ : FTy}

/-- The sum over the contraction index of the products of two arrays of reals is a real. -/
theorem exists_real_contraction (d : DotDims sl sr so) {l : FVec Ideal sl φ₁} {r : FVec Ideal sr φ₂}
    (hl : AllReal l) (hr : AllReal r) (j : so.Idx) :
    ∃ c : ℝ, ∑ k : d.contr.Idx, l (d.lhsIdx j k) * r (d.rhsIdx j k) = (c : EReal) :=
  exists_real_sum Finset.univ (fun k => l (d.lhsIdx j k) * r (d.rhsIdx j k)) fun k => by
    obtain ⟨a, ha⟩ := hl (d.lhsIdx j k)
    obtain ⟨b, hb⟩ := hr (d.rhsIdx j k)
    exact ⟨a * b, by rw [ha, hb, EReal.coe_mul]⟩

/-- The host's matrix product of two arrays of reals: each entry a finite sum of products, a real. -/
theorem allReal_hostDotGeneral (d : DotDims sl sr so) (prec : Option ContractPrecision) {l : FVec Ideal sl φ₁}
    {r : FVec Ideal sr φ₂} (hl : AllReal l) (hr : AllReal r) : AllReal (Host.dotGeneral (F := Ideal) d prec l r) := by
  intro j
  obtain ⟨c, hc⟩ := exists_real_contraction d hl hr j
  exact ⟨c, (Ideal.dotGeneral_apply d prec .single l r j).trans hc⟩

/-- The matrix unit's product added to an accumulator, all three arrays of reals: each entry the
    accumulator's plus a finite sum of products, a real. -/
theorem allReal_matmul (d : DotDims sl sr so) (prec : Option ContractPrecision) {l : FVec Ideal sl φ₁}
    {r : FVec Ideal sr φ₂} {acc : FVec Ideal so .f32} (hl : AllReal l) (hr : AllReal r) (hacc : AllReal acc) :
    AllReal (matmul (F := Ideal) d prec l r acc) := by
  intro j
  obtain ⟨c, hc⟩ := exists_real_contraction d hl hr j
  obtain ⟨a, ha⟩ := hacc j
  refine ⟨a + c, (Ideal.matmul_apply d prec l r acc j).trans ?_⟩
  rw [ha, hc, EReal.coe_add]

end Contraction

section Constants

/-- The single-precision pattern 0x3F800000 (sign 0, exponent 127, fraction 0) denotes the real 1. -/
theorem ofBits_f32_one : Ideal.ofBits .f32 0x3F800000#32 = ((1 : ℝ) : EReal) := by
  simp [Ideal.ofBits, Ideal.ieee, -EReal.coe_mul]; norm_num

/-- The single-precision pattern 0xBF000000 (sign 1, exponent 126, fraction 0) denotes the real -1/2. -/
theorem ofBits_f32_neg_half : Ideal.ofBits .f32 0xBF000000#32 = ((-(1 / 2) : ℝ) : EReal) := by
  simp [Ideal.ofBits, Ideal.ieee, -EReal.coe_mul]; norm_num

/-- The single-precision pattern 0x47435000 (exponent 142, fraction 0x435000) denotes the real 50000. -/
theorem ofBits_f32_50000 : Ideal.ofBits .f32 0x47435000#32 = ((50000 : ℝ) : EReal) := by
  simp [Ideal.ofBits, Ideal.ieee, -EReal.coe_mul]; norm_num

/-- The single-precision pattern 0x3727C5AC (exponent 110, fraction 0x27C5AC) denotes the real
    (2^23 + 2606508) · 2^(110 - 127 - 23) = 10995116 / 2^40, the float nearest 10⁻⁵. -/
theorem ofBits_f32_eps : Ideal.ofBits .f32 0x3727C5AC#32 = ((10995116 / 1099511627776 : ℝ) : EReal) := by
  simp [Ideal.ofBits, Ideal.ieee, -EReal.coe_mul]; norm_num

variable (s : Shape)

/-- The constant array of pattern 0x00000000: every entry the real 0. -/
theorem allNonneg_constant_zero : AllNonneg (constant (F := Ideal) s .f32 0x00000000#32) :=
  fun _ => ⟨0, le_rfl, Ideal.ofBits_zero_f32.trans EReal.coe_zero.symm⟩

/-- The constant array of pattern 0x00000000: every entry the real 0. -/
theorem allReal_constant_zero : AllReal (constant (F := Ideal) s .f32 0x00000000#32) :=
  (allNonneg_constant_zero s).allReal

/-- The constant array of pattern 0x3F800000: every entry the positive real 1. -/
theorem allPos_constant_one : AllPos (constant (F := Ideal) s .f32 0x3F800000#32) :=
  fun _ => ⟨1, one_pos, ofBits_f32_one⟩

/-- The constant array of pattern 0x3F800000: every entry the real 1. -/
theorem allReal_constant_one : AllReal (constant (F := Ideal) s .f32 0x3F800000#32) :=
  (allPos_constant_one s).allReal

/-- The constant array of pattern 0xBF000000: every entry the real -1/2. -/
theorem allReal_constant_neg_half : AllReal (constant (F := Ideal) s .f32 0xBF000000#32) :=
  fun _ => ⟨-(1 / 2), ofBits_f32_neg_half⟩

/-- The constant array of pattern 0x47435000: every entry the positive real 50000. -/
theorem allPos_constant_50000 : AllPos (constant (F := Ideal) s .f32 0x47435000#32) :=
  fun _ => ⟨50000, by norm_num, ofBits_f32_50000⟩

/-- The constant array of pattern 0x47435000: every entry the real 50000. -/
theorem allReal_constant_50000 : AllReal (constant (F := Ideal) s .f32 0x47435000#32) :=
  (allPos_constant_50000 s).allReal

/-- The constant array of pattern 0x3727C5AC: every entry the positive real 10995116 / 2^40. -/
theorem allPos_constant_eps : AllPos (constant (F := Ideal) s .f32 0x3727C5AC#32) :=
  fun _ => ⟨10995116 / 1099511627776, by norm_num, ofBits_f32_eps⟩

/-- The constant array of pattern 0x3727C5AC: every entry a real. -/
theorem allReal_constant_eps : AllReal (constant (F := Ideal) s .f32 0x3727C5AC#32) :=
  (allPos_constant_eps s).allReal

end Constants

end Cert.LibIdealReal
-- ==== Proof.Scale.lean ====
/-
  Multiplying every row by the reciprocal of the node's clamped in-degree IS dividing the row by that degree.

  The clamped in-degree of a node is `max (count, 1)` where the count is a sum of ones (one per edge into the node) added to
  zero: a real number, at least one.  For a nonzero real `d` and ANY extended real `y` (the infinities included),
  `y · (1 / d) = y / d`; so the kernel program's `agg · inv` with `inv = 1 / deg` is the reference's `agg / deg`, entry by
  entry, with no condition on the aggregated values.
-/
import proofs.«165877_j32968168964350_2_alg».proof.Proof.RefSpec
import proofs.«165877_j32968168964350_2_alg».proof.Proof.LibIdealReal
import proofs.«165877_j32968168964350_2_alg».proof.Proof.LibRowReduce
import proofs.«165877_j32968168964350_2_alg».proof.Proof.LibIdealLayout

noncomputable section

namespace Cert.ReferenceIdeal.Hand

open Cert.ReferenceIdeal Cert.ReferenceIdeal.Gen Idealize.ShloMosaic Idealize.ShloMosaic.ValueIdx Cert.LibIdealReal

/-- The maximum of a real and a positive real is a positive real. -/
theorem allPos_maximumf_right {s : Shape} {φ : FTy} {x y : FVec Ideal s φ} (hx : AllReal x) (hy : AllPos y) :
    AllPos (maximumf x y) := by
  intro i
  obtain ⟨a, ha⟩ := hx i
  obtain ⟨b, hb0, hb⟩ := hy i
  show ∃ r : ℝ, 0 < r ∧ max (x i) (y i) = (r : EReal)
  rcases le_total (x i) (y i) with h | h
  · exact ⟨b, hb0, by rw [max_eq_right h, hb]⟩
  · refine ⟨a, ?_, by rw [max_eq_left h, ha]⟩
    rw [ha, hb] at h
    exact lt_of_lt_of_le hb0 (EReal.coe_le_coe_iff.mp h)

/-- Every clamped in-degree is a positive real, whatever the edge list. -/
theorem degVec_pos (dst : (⟨S1600000, .i32⟩ : BufTy).Contents (Elt Ideal)) : AllPos (φ := .f32) (degVec (F := Ideal) dst) := by
  unfold degVec
  exact allPos_maximumf_right
    (AllNonneg.allReal (allNonneg_hostScatterAdd _ _
      (allNonneg_broadcastInDim _ _ (allNonneg_constant_zero _))
      (AllPos.allNonneg (allPos_broadcastInDim _ _ (allPos_constant_one _)))))
    (allPos_broadcastInDim _ _ (allPos_constant_one _))

/-- Rows scaled by the reciprocals of positive reals are the rows divided by them. -/
theorem mul_recip_eq_div (Y : (⟨S100000x128, .f32⟩ : BufTy).Contents (Elt Ideal)) (D : (⟨S100000, .f32⟩ : BufTy).Contents (Elt Ideal)) (hD : AllPos (φ := .f32) D) :
    mulf (F := Ideal) (s := S100000x128) (φ := .f32) Y
        (perRow (F := Ideal) (Host.divf (F := Ideal) (s := S100000) (φ := .f32)
          (broadcastInDim S100000 ![] bcast_S_S100000 (constant (F := Ideal) S_ .f32 0x3F800000#32)) D))
      = Host.divf (F := Ideal) (s := S100000x128) (φ := .f32) Y (perRow (F := Ideal) D) := by
  funext i
  obtain ⟨r, q, rfl⟩ : ∃ (r : Fin 100000) (q : Fin 128), i = ix2 r q := ⟨i 0, i 1, eq_ix2 i⟩
  obtain ⟨d, hd0, hd⟩ := hD (ix1 r)
  show Y (ix2 r q) * perRow (F := Ideal) (Host.divf (F := Ideal) (s := S100000) (φ := .f32)
      (broadcastInDim S100000 ![] bcast_S_S100000 (constant (F := Ideal) S_ .f32 0x3F800000#32)) D) (ix2 r q)
    = Ideal.div (Y (ix2 r q)) (perRow (F := Ideal) D (ix2 r q))
  unfold perRow
  rw [Cert.Lib.broadcastInDim_col_apply, Cert.Lib.broadcastInDim_col_apply]
  show Y (ix2 r q) * Ideal.div (broadcastInDim S100000 ![] bcast_S_S100000 (constant (F := Ideal) S_ .f32 0x3F800000#32) (ix1 r)) (D (ix1 r))
    = Ideal.div (Y (ix2 r q)) (D (ix1 r))
  rw [IdealLayout.broadcastInDim_scalar_apply]
  show Y (ix2 r q) * Ideal.div (Ideal.ofBits .f32 0x3F800000#32) (D (ix1 r)) = _
  rw [hd, ofBits_f32_one, Ideal.div_coe hd0.ne', Ideal.div_coe hd0.ne', ← EReal.coe_mul, one_mul]

end Cert.ReferenceIdeal.Hand

end
-- ==== Proof.KernelValue.lean ====
/-
  What the idealized kernel program's result buffer holds at the end, as a function of the arguments.

  Through the four segments: the first stretch leaves the scaled neighbour sums of the input (and the edge list's two rows
  and the reciprocal degrees, which the second stretch reads again); the first launch leaves layer one of them and the
  input — the hidden features; the second stretch the scaled neighbour sums of the hidden features; the second launch layer
  two.  Scaling by the reciprocal degree is dividing by the degree (`Scale`), so the result is the reference's `output`
  of the same arguments.
-/
import proofs.«165877_j32968168964350_2_alg».proof.Proof.KernelHost
import proofs.«165877_j32968168964350_2_alg».proof.Proof.KernelLayers
import proofs.«165877_j32968168964350_2_alg».proof.Proof.Scale

set_option maxRecDepth 16384

noncomputable section

namespace Cert.KernelIdeal.Hand

open Cert.KernelIdeal Cert.KernelIdeal.Gen Idealize.ShloMosaic Idealize.ShloMosaic.TcCoe Idealize.SL.Sem

/-- The kernel program's scaled neighbour sums, over the edge list's rows and the reciprocal degrees it computes from
    them, are the reference's neighbour means. -/
theorem scaled_eq_mean (feat : (⟨S100000x128, .f32⟩ : BufTy).Contents (Elt Ideal)) (e : (⟨S2x1600000, .i32⟩ : BufTy).Contents (Elt Ideal)) :
    scaledNbrSum (F := Ideal) feat (srcVec e) (dstVec e) (invDegVec (dstVec e))
      = Cert.ReferenceIdeal.Hand.meanNbr (F := Ideal) feat (Cert.ReferenceIdeal.Hand.srcVec e) (Cert.ReferenceIdeal.Hand.dstVec e) :=
  Cert.ReferenceIdeal.Hand.mul_recip_eq_div
    (Cert.ReferenceIdeal.Hand.nbrSum (F := Ideal) feat (Cert.ReferenceIdeal.Hand.srcVec e) (Cert.ReferenceIdeal.Hand.dstVec e))
    (Cert.ReferenceIdeal.Hand.degVec (F := Ideal) (Cert.ReferenceIdeal.Hand.dstVec e))
    (Cert.ReferenceIdeal.Hand.degVec_pos _)

variable (m : (ℓ : Loc nD τ sig) → Buf (Elt Ideal) ℓ) (ρ : Dev nD → PrngReg)

/-- After the first launch: the hidden features. -/
theorem W2_v25 (c : Dev nD) : W2 m ρ c (Proc.devRef .tc main_v25)
    = Cert.ReferenceIdeal.Hand.hidden (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  have h : W2 m ρ c (Proc.devRef .tc main_v25)
      = Cert.ReferenceIdeal.Hand.layer1 (F := Ideal) (W1 m ρ c (Proc.devRef .tc main_v24)) (W1 m ρ c (Proc.devRef .tc main_arg0))
          (W1 m ρ c (Proc.devRef .tc main_arg2)) (W1 m ρ c (Proc.devRef .tc main_arg3)) (W1 m ρ c (Proc.devRef .tc main_arg4)) :=
    (W2_arr m ρ c 5).trans (array1 (V1 m ρ) c)
  rw [h, W1_v24, W1_arg0, W1_arg2, W1_arg3, W1_arg4, scaled_eq_mean]
  rfl

/-- After the second launch: the result. -/
theorem W4_v39 (c : Dev nD) : W4 m ρ c (Proc.devRef .tc main_v39)
    = Cert.ReferenceIdeal.Hand.output (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  have h : W4 m ρ c (Proc.devRef .tc main_v39)
      = Cert.ReferenceIdeal.Hand.layer2 (F := Ideal) (W3 m ρ c (Proc.devRef .tc main_v38)) (W3 m ρ c (Proc.devRef .tc main_v25))
          (W3 m ρ c (Proc.devRef .tc main_arg5)) (W3 m ρ c (Proc.devRef .tc main_arg6)) (W3 m ρ c (Proc.devRef .tc main_arg7)) :=
    (W4_arr m ρ c 5).trans (array2 (V3 m ρ) c)
  rw [h, W3_v38, W3_v25, W3_arg5, W3_arg6, W3_arg7, W2_v1, W2_v3, W2_v11, W2_arg5, W2_arg6, W2_arg7, W2_v25, scaled_eq_mean]
  rfl

end Cert.KernelIdeal.Hand

end
-- ==== Proof.RefRead.lean ====
/-
  The reference program's run, read back: what its result buffer holds at the end, as a function of its arguments.

  The program is a straight line of 84 host operations.  Its first 38 compute the hidden features: for every node the
  mean of its in-neighbours' input rows (the gathered rows added per destination node, divided by the node's in-degree
  clamped at one), then layer one.  The other 46 do the same with the hidden features in place of the input and finish
  with layer two.  The line is read in three stages (the hidden features; the second layer's affine map; its log-softmax), each from ANY
  contents the stage before may have left; the stages compose because running a line is running its first part and then
  the rest from what that left.
-/
import proofs.«165877_j32968168964350_2_alg».proof.Proof.RefRun
import proofs.«165877_j32968168964350_2_alg».proof.Proof.RefSpec
import Idealize.ShloMosaic.Lib.Pipeline.Frame
import Idealize.ShloMosaic.Lib.StableHlo.Run

set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The line in three stages -/

/-- The first 38 operations: up to the hidden features. -/
abbrev opsA : List (HloOp τ sig (Elt F)) := (ops (F := F)).take 38
/-- The next 31: up to the second layer's affine map. -/
abbrev opsB : List (HloOp τ sig (Elt F)) := ((ops (F := F)).drop 38).take 31
/-- The last 15: the log-softmax. -/
abbrev opsC : List (HloOp τ sig (Elt F)) := ((ops (F := F)).drop 38).drop 31

theorem after_ops (V : Valuation τ sig (Elt F)) : after (ops (F := F)) V = after opsC (after opsB (after opsA V)) :=
  ((congrArg (fun l => after l V) (List.take_append_drop 38 (ops (F := F))).symm).trans (StableHlo.after_append _ _ V)).trans
    ((congrArg (fun l => after l (after opsA V)) (List.take_append_drop 31 ((ops (F := F)).drop 38)).symm).trans
      (StableHlo.after_append _ _ (after opsA V)))

variable (V : Valuation τ sig (Elt F))

set_option maxHeartbeats 4000000 in
theorem readA_v29 : after opsA V (Proc.devRef .tc main_v29)
    = hidden (V (Proc.devRef .tc main_arg0)) (V (Proc.devRef .tc main_arg1)) (V (Proc.devRef .tc main_arg2))
        (V (Proc.devRef .tc main_arg3)) (V (Proc.devRef .tc main_arg4)) := by
  simp only [opsA, ops, List.take_succ_cons, List.take_zero]
  after_results_simp <;> rfl

set_option maxHeartbeats 4000000 in
theorem readA_v1 : after opsA V (Proc.devRef .tc main_v1) = srcVec (V (Proc.devRef .tc main_arg1)) := by
  simp only [opsA, ops, List.take_succ_cons, List.take_zero]
  after_results_simp <;> rfl

set_option maxHeartbeats 4000000 in
theorem readA_v3 : after opsA V (Proc.devRef .tc main_v3) = dstVec (V (Proc.devRef .tc main_arg1)) := by
  simp only [opsA, ops, List.take_succ_cons, List.take_zero]
  after_results_simp <;> rfl

set_option maxHeartbeats 4000000 in
theorem readA_arg5 : after opsA V (Proc.devRef .tc main_arg5) = V (Proc.devRef .tc main_arg5) := by
  simp only [opsA, ops, List.take_succ_cons, List.take_zero]
  after_results_simp <;> rfl
set_option maxHeartbeats 4000000 in
theorem readA_arg6 : after opsA V (Proc.devRef .tc main_arg6) = V (Proc.devRef .tc main_arg6) := by
  simp only [opsA, ops, List.take_succ_cons, List.take_zero]
  after_results_simp <;> rfl
set_option maxHeartbeats 4000000 in
theorem readA_arg7 : after opsA V (Proc.devRef .tc main_arg7) = V (Proc.devRef .tc main_arg7) := by
  simp only [opsA, ops, List.take_succ_cons, List.take_zero]
  after_results_simp <;> rfl

set_option maxHeartbeats 8000000 in
theorem readB_v54 : after opsB V (Proc.devRef .tc main_v54)
    = affine40 (meanNbr (V (Proc.devRef .tc main_v29)) (V (Proc.devRef .tc main_v1)) (V (Proc.devRef .tc main_v3)))
        (V (Proc.devRef .tc main_v29)) (V (Proc.devRef .tc main_arg5)) (V (Proc.devRef .tc main_arg6)) (V (Proc.devRef .tc main_arg7)) := by
  simp only [opsB, ops, List.drop_succ_cons, List.drop_zero, List.take_succ_cons, List.take_zero]
  after_results_simp <;> rfl

/-- Contents carried to a buffer's own type and back are the contents. -/
theorem ofBuf_toBuf {T : BufTy} (x : TRef sig T) (v : T.Contents (Elt F)) : x.ofBuf (x.toBuf v) = v := by
  obtain ⟨r, h, _, _⟩ := x
  subst h
  rfl

/-- At a buffer whose type is literally the value's, carrying contents to the buffer's type changes nothing. -/
theorem toBuf_v55 (X : (⟨S100000x40, .f32⟩ : BufTy).Contents (Elt F)) :
    (TRef.of (T := ⟨S100000x40, .f32⟩) main_v55).toBuf X = X := rfl
theorem ofBuf_v54 (w : (⟨S100000x40, .f32⟩ : BufTy).Contents (Elt F)) :
    (TRef.of (T := ⟨S100000x40, .f32⟩) main_v54).ofBuf w = w := rfl

set_option maxHeartbeats 8000000 in
theorem readC_v55 : after opsC V (Proc.devRef .tc main_v55) = logSoftmax (V (Proc.devRef .tc main_v54)) := by
  simp only [opsC, ops, List.drop_succ_cons, List.drop_zero]
  after_results_simp
  simp only [ofBuf_toBuf]
  refine (toBuf_v55 _).trans ?_
  rw [ofBuf_v54]
  rfl

/-- The whole line at the result buffer. -/
theorem read_v55 : after (ops (F := F)) V (Proc.devRef .tc main_v55)
    = output (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) := by
  rw [after_ops, readC_v55, readB_v54, readA_v29, readA_v1, readA_v3, readA_arg5, readA_arg6, readA_arg7]
  rfl

/-! ## The run -/

set_option maxHeartbeats 33600000 in
/-- On every device, from any memory with zero counters: every weakly fair execution of the reference program terminates
    with its result buffer at `output` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = output (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v55).trans ((read_v55 _).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Hand

end
-- ==== Proof.lean ====
/-
  A two-layer GraphSAGE forward pass: the Pallas kernel program against its jnp reference, on the extended reals.

  Both programs compute, twice, `mean-of-in-neighbours · Wl + self · Wr + b` over 100000 nodes and 1600000 edges, with a
  rectifier after the first layer and a log-softmax along the 40 output lanes after the second.  They differ in three
  places, none of which changes a value at the exact instance:
    * the kernel program scales the neighbour sums by a reciprocal degree computed once, the reference divides by the
      degree in each layer — the degree is a positive real, so the two agree entry by entry, at infinite entries too;
    * the kernel program computes each dense layer in 50 launches' blocks of 2000 rows (its operands first cast to bf16,
      which is the identity here), the reference with whole-array `dot_general`s — a row of either is the same function
      of the same rows;
    * the reference's log-softmax takes one more maximum, against minus infinity.
  So both result buffers end at `Cert.ReferenceIdeal.Hand.output` of the arguments.  The frames of the two kernel programs are
  the generated ones; the reference's is its run with the result dropped; nothing was rewritten by the idealization, so
  `preserves` is trivial.
-/
import proofs.«165877_j32968168964350_2_alg».proof.Defs
import proofs.«165877_j32968168964350_2_alg».proof.Proof.Gen.Kernel
import proofs.«165877_j32968168964350_2_alg».proof.Proof.Gen.Kernel.Skeleton
import proofs.«165877_j32968168964350_2_alg».proof.Proof.Gen.Kernel.Launch
import proofs.«165877_j32968168964350_2_alg».proof.Proof.Gen.Kernel.Points
import proofs.«165877_j32968168964350_2_alg».proof.Proof.Gen.Kernel.Frame
import proofs.«165877_j32968168964350_2_alg».proof.Proof.Gen.KernelIdeal
import proofs.«165877_j32968168964350_2_alg».proof.Proof.Gen.KernelIdeal.Skeleton
import proofs.«165877_j32968168964350_2_alg».proof.Proof.Gen.KernelIdeal.Launch
import proofs.«165877_j32968168964350_2_alg».proof.Proof.Gen.KernelIdeal.Points
import proofs.«165877_j32968168964350_2_alg».proof.Proof.Gen.KernelIdeal.Frame
import proofs.«165877_j32968168964350_2_alg».proof.Proof.Gen.ReferenceIdeal
import proofs.«165877_j32968168964350_2_alg».proof.Proof.Gen.Pre_finite_inputs
import proofs.«165877_j32968168964350_2_alg».proof.Proof.KernelRun
import proofs.«165877_j32968168964350_2_alg».proof.Proof.KernelValue
import proofs.«165877_j32968168964350_2_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- Both programs, from memories that agree on the arguments, end with their result buffers at the same array: the
    reference's `output` of the arguments. -/
theorem algebraic : Cert.algebraic_KernelIdeal_ReferenceIdeal := by
  intro m ρ m' ρ' _ hagree
  refine ⟨fun c => Cert.ReferenceIdeal.Hand.output (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.W4_v39 m ρ c), (h c).2⟩)
      (Cert.KernelIdeal.Hand.run_boundary (F := Ideal) m ρ)
  · refine (θ_run Cert.ReferenceIdeal.defs _ _).mono (fun _ h c => ⟨(h c).1.trans ?_, (h c).2⟩)
      (Cert.ReferenceIdeal.Hand.run (F := Ideal) m' ρ')
    obtain ⟨a0, a1, a2, a3, a4, a5, a6, a7⟩ := hagree c
    rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
